-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128x128 .f32) (main_arg8 : FVec F S64x128 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128x128 .f32) (main_arg7 : FVec F S128x128 .f32) (main_arg8 : FVec F S64x128 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 109
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S128x128, .f32⟩
  | .hbm, ⟨53, _⟩ => ⟨S1x128, .f32⟩
  | .hbm, ⟨54, _⟩ => ⟨S100000x128, .f32⟩
  | .hbm, ⟨55, _⟩ => ⟨S1700000x1, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S100000x128, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S100000x128, .f32⟩
  | .hbm, ⟨89, _⟩ => ⟨S1700000x1, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x128, .f32⟩
  | .hbm, ⟨99, _⟩ => ⟨S1700000x128, .f32⟩
  | .hbm, ⟨100, _⟩ => ⟨S1700000x128, .f32⟩
  | .hbm, ⟨101, _⟩ => ⟨S_, .f32⟩
  | .hbm, ⟨102, _⟩ => ⟨S100000x128, .f32⟩
  | .hbm, ⟨103, _⟩ => ⟨S1700000x1, .i32⟩
  | .hbm, ⟨104, _⟩ => ⟨S100000x128, .f32⟩
  | .hbm, ⟨105, _⟩ => ⟨S100000x128, .f32⟩
  | .hbm, ⟨106, _⟩ => ⟨S128x64, .f32⟩
  | .hbm, ⟨107, _⟩ => ⟨S1x64, .f32⟩
  | .hbm, ⟨108, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128x128, .f32⟩
  | 7 => ⟨S128x128, .f32⟩
  | 8 => ⟨S64x128, .f32⟩
  | 9 => ⟨S64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S128x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S1700000x1, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S_, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S1700000x1, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S_, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S1700000x1, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x128, .f32⟩
  | 10 => ⟨S1700000x128, .f32⟩
  | 11 => ⟨S1700000x128, .f32⟩
  | 12 => ⟨S_, .f32⟩
  | 13 => ⟨S100000x128, .f32⟩
  | 14 => ⟨S1700000x1, .i32⟩
  | 15 => ⟨S100000x128, .f32⟩
  | 16 => ⟨S_, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S128x64, .f32⟩
  | 35 => ⟨S100000x64, .f32⟩
  | 36 => ⟨S1x64, .f32⟩
  | 37 => ⟨S100000x64, .f32⟩
  | 38 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call2_cst : Ref sig .tc := ⟨.hbm, 91, rfl⟩
abbrev main_call2_v0 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_16 : Ref sig .tc := ⟨.hbm, 110, rfl⟩
abbrev main_v76 : Ref sig .tc := ⟨.hbm, 111, rfl⟩
abbrev main_v77 : Ref sig .tc := ⟨.hbm, 112, rfl⟩
abbrev main_cst_17 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_19 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call3_cst : Ref sig .tc := ⟨.hbm, 125, rfl⟩
abbrev main_call3_v0 : Ref sig .tc := ⟨.hbm, 126, rfl⟩
abbrev main_v87 : Ref sig .tc := ⟨.hbm, 127, rfl⟩
abbrev main_v88 : Ref sig .tc := ⟨.hbm, 128, rfl⟩
abbrev main_c_20 : Ref sig .tc := ⟨.hbm, 129, rfl⟩
abbrev main_v89 : Ref sig .tc := ⟨.hbm, 130, rfl⟩
abbrev main_v90 : Ref sig .tc := ⟨.hbm, 131, rfl⟩
abbrev main_c_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_22 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_23 : Ref sig .tc := ⟨.hbm, 144, rfl⟩
abbrev main_v101 : Ref sig .tc := ⟨.hbm, 145, rfl⟩
abbrev main_v102 : Ref sig .tc := ⟨.hbm, 146, rfl⟩
abbrev main_cst_24 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_25 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_26 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_call4_cst : Ref sig .tc := ⟨.hbm, 159, rfl⟩
abbrev main_call4_v0 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1700000x1_S1700000x128_0_1 : S1700000x1.BroadcastsInDim S1700000x128 (![0, 1] : Fin 2 → Fin S1700000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RunVal.lean ====
/-
  The idealized kernel's run with its result named.

  The program is twelve segments: stretches of host operations and five pipelined regions. The buffer
  contents at the segment boundaries form a fold from the launch memory, `W0 … W12`. Every weakly fair
  execution terminates, nothing faulting, in a state whose unscoped buffers hold the last boundary's
  contents `W12`; read at the result buffer this names the result, and read at an argument it walks back
  to the launch memory.
-/
import proofs.«166128_j40999757808031_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the twelve segments: the result buffer ends at the last boundary's contents, and every
    argument array ends as launched. -/
theorem frame_result : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.RunVal

end
-- ==== Proof.Spec.lean ====
/-
  The dense layers of the graph network, as functions on matrices of extended reals.

  Every layer acts row by row: row `r` of the result depends on row `r` of the row-indexed operands and on
  the whole weight matrix. So one definition, generic in the number of rows, describes both a block of rows
  and the whole array, and a block of the result is the layer applied to the matching blocks of rows.

  * `dense x w`            : the matrix product, entry `(r, c)` = Σₖ x(r,k) · w(k,c);
  * `proj x wt b`          : max(x·wt + b, 0), the bias `b` a `1×N` row added to every row;
  * `mix agg h0`           : 0.9·agg + 0.1·h0 (the two weights are the float words, never evaluated);
  * `comb ca cb agg h0 w`  : max(ca·z + cb·(z·w), 0) with z = mix agg h0;
  * `outp h wt b`          : h·wt + b.
-/
import Idealize.ShloMosaic.PureOps.Ideal.Laws
import Idealize.ShloMosaic.Lib.ValueIdx

noncomputable section

namespace Cert.Gcn

open Idealize.ShloMosaic Idealize.ShloMosaic.ValueIdx

/-- An `M×N` matrix of extended reals, indexed as a rank-2 array. -/
abbrev Mat (M N : Nat) : Type := (⟨2, ![M, N]⟩ : Shape).Idx → EReal

/-- The float word of zero, as an extended real (it is 0; nothing here needs to know). -/
def zeroW : EReal := Ideal.ofBits .f32 0x00000000#32
/-- The weight of the aggregated features in the initial-residual mix, the float nearest 0.9. -/
def wAgg : EReal := Ideal.ofBits .f32 0x3F666666#32
/-- The weight of the first layer's features in the initial-residual mix, the float nearest 0.1. -/
def wInit : EReal := Ideal.ofBits .f32 0x3DCCCCCD#32

/-- The matrix product. -/
def dense {M K N : Nat} (x : Mat M K) (w : Mat K N) : Mat M N :=
  fun j => ∑ k : Fin K, x (ix2 (j 0) k) * w (ix2 k (j 1))

/-- The input projection: max(x·wt + b, 0). -/
def proj {M K N : Nat} (x : Mat M K) (wt : Mat K N) (b : Mat 1 N) : Mat M N :=
  fun j => max (dense x wt j + b (ix2 0 (j 1))) zeroW

/-- The initial-residual mix 0.9·agg + 0.1·h0. -/
def mix {M N : Nat} (agg h0 : Mat M N) : Mat M N :=
  fun i => wAgg * agg i + wInit * h0 i

/-- One propagation layer after aggregation: max(ca·z + cb·(z·w), 0), z the mix. -/
def comb {M K : Nat} (ca cb : EReal) (agg h0 : Mat M K) (w : Mat K K) : Mat M K :=
  fun j => max (ca * mix agg h0 j + cb * dense (mix agg h0) w j) zeroW

/-- The output projection h·wt + b. -/
def outp {M K N : Nat} (h : Mat M K) (wt : Mat K N) (b : Mat 1 N) : Mat M N :=
  fun j => dense h wt j + b (ix2 0 (j 1))

/-! ## Rows: a block of rows of a layer's result is the layer on the block of rows

`xb` is the block of `B` rows of `x` starting at row `o` when `xb (p, k) = x (o + p, k)`. -/

theorem dense_rows {B M K N : Nat} (xb : Mat B K) (x : Mat M K) (w : Mat K N) (p : Fin B) (r : Fin M) (q : Fin N)
    (hx : ∀ k : Fin K, xb (ix2 p k) = x (ix2 r k)) :
    dense xb w (ix2 p q) = dense x w (ix2 r q) := by
  unfold dense
  refine Finset.sum_congr rfl fun k _ => ?_
  show xb (ix2 p k) * w (ix2 k q) = x (ix2 r k) * w (ix2 k q)
  rw [hx k]

theorem proj_rows {B M K N : Nat} (xb : Mat B K) (x : Mat M K) (wt : Mat K N) (b : Mat 1 N) (p : Fin B) (r : Fin M)
    (q : Fin N) (hx : ∀ k : Fin K, xb (ix2 p k) = x (ix2 r k)) :
    proj xb wt b (ix2 p q) = proj x wt b (ix2 r q) := by
  unfold proj
  rw [dense_rows xb x wt p r q hx]
  rfl

theorem outp_rows {B M K N : Nat} (xb : Mat B K) (x : Mat M K) (wt : Mat K N) (b : Mat 1 N) (p : Fin B) (r : Fin M)
    (q : Fin N) (hx : ∀ k : Fin K, xb (ix2 p k) = x (ix2 r k)) :
    outp xb wt b (ix2 p q) = outp x wt b (ix2 r q) := by
  unfold outp
  rw [dense_rows xb x wt p r q hx]
  rfl

theorem comb_rows {B M K : Nat} (ca cb : EReal) (ab hb : Mat B K) (a h : Mat M K) (w : Mat K K) (p : Fin B) (r : Fin M)
    (q : Fin K) (ha : ∀ k : Fin K, ab (ix2 p k) = a (ix2 r k)) (hh : ∀ k : Fin K, hb (ix2 p k) = h (ix2 r k)) :
    comb ca cb ab hb w (ix2 p q) = comb ca cb a h w (ix2 r q) := by
  have hm : ∀ k : Fin K, mix ab hb (ix2 p k) = mix a h (ix2 r k) := fun k => by
    unfold mix; rw [ha k, hh k]
  unfold comb
  rw [dense_rows (mix ab hb) (mix a h) w p r q hm, hm q]

end Cert.Gcn

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RefDense.lean ====
/-
  The reference program's dense layers, read index by index.

  Each dense layer of the reference is a `dot_general` followed by elementwise operations and broadcasts of scalar
  constants. On the extended reals every one of these is read at an index: the `dot_general` at `(r, c)` is the sum
  over `k` of the left operand at `(r, k)` times the right operand at `(k, c)`, an elementwise operation acts on the
  operands' entries at the same index, and a broadcast scalar is the scalar. So each layer is the matching function
  of the specification applied to the layer's inputs; the inputs (the aggregated features and the first layer's
  output) stay closed throughout.
-/
import proofs.«166128_j40999757808031_1_alg».proof.Proof.Gen.ReferenceIdeal.Read
import proofs.«166128_j40999757808031_1_alg».proof.Proof.Spec
import proofs.«166128_j40999757808031_1_alg».proof.Proof.LibPlainDot

noncomputable section
open Idealize.ShloMosaic Idealize.ShloMosaic.TcCoe Idealize.SL.Sem Idealize.ShloMosaic.StableHlo

namespace Cert.ReferenceIdeal.Dense
open Cert.ReferenceIdeal Cert.ReferenceIdeal.Read Cert.Gcn Idealize.ShloMosaic.ValueIdx

/-! ## Where the reference reads its operands

The reference's contractions read the left operand at `(row, k)` and the right operand at `(k, column)`; a bias
row broadcast along the rows is read at `(0, column)`. -/

theorem r_lidx33 (j : (⟨2, ![100000, 128]⟩ : Shape).Idx) (k : Fin 128) : lidx_main_v33 j k = ix2 (j 0) k :=
  funext fun a => Fin.ext (by match a with | ⟨0, _⟩ => rfl | ⟨1, _⟩ => rfl)
theorem r_ridx33 (j : (⟨2, ![100000, 128]⟩ : Shape).Idx) (k : Fin 128) : ridx_main_v33 j k = ix2 k (j 1) :=
  funext fun a => Fin.ext (by match a with | ⟨0, _⟩ => rfl | ⟨1, _⟩ => rfl)
theorem r_idx35 (j : (⟨2, ![100000, 128]⟩ : Shape).Idx) : idx_main_v35 j = ix2 (0 : Fin 1) (j 1) :=
  funext fun a => Fin.ext (by match a with | ⟨0, _⟩ => rfl | ⟨1, _⟩ => rfl)
theorem r_lidx58 (j : (⟨2, ![100000, 128]⟩ : Shape).Idx) (k : Fin 128) : lidx_main_v58 j k = ix2 (j 0) k :=
  funext fun a => Fin.ext (by match a with | ⟨0, _⟩ => rfl | ⟨1, _⟩ => rfl)
theorem r_ridx58 (j : (⟨2, ![100000, 128]⟩ : Shape).Idx) (k : Fin 128) : ridx_main_v58 j k = ix2 k (j 1) :=
  funext fun a => Fin.ext (by match a with | ⟨0, _⟩ => rfl | ⟨1, _⟩ => rfl)
theorem r_lidx83 (j : (⟨2, ![100000, 128]⟩ : Shape).Idx) (k : Fin 128) : lidx_main_v83 j k = ix2 (j 0) k :=
  funext fun a => Fin.ext (by match a with | ⟨0, _⟩ => rfl | ⟨1, _⟩ => rfl)
theorem r_ridx83 (j : (⟨2, ![100000, 128]⟩ : Shape).Idx) (k : Fin 128) : ridx_main_v83 j k = ix2 k (j 1) :=
  funext fun a => Fin.ext (by match a with | ⟨0, _⟩ => rfl | ⟨1, _⟩ => rfl)
theorem r_lidx108 (j : (⟨2, ![100000, 128]⟩ : Shape).Idx) (k : Fin 128) : lidx_main_v108 j k = ix2 (j 0) k :=
  funext fun a => Fin.ext (by match a with | ⟨0, _⟩ => rfl | ⟨1, _⟩ => rfl)
theorem r_ridx108 (j : (⟨2, ![100000, 128]⟩ : Shape).Idx) (k : Fin 128) : ridx_main_v108 j k = ix2 k (j 1) :=
  funext fun a => Fin.ext (by match a with | ⟨0, _⟩ => rfl | ⟨1, _⟩ => rfl)
theorem r_lidx114 (j : (⟨2, ![100000, 64]⟩ : Shape).Idx) (k : Fin 128) : lidx_main_v114 j k = ix2 (j 0) k :=
  funext fun a => Fin.ext (by match a with | ⟨0, _⟩ => rfl | ⟨1, _⟩ => rfl)
theorem r_ridx114 (j : (⟨2, ![100000, 64]⟩ : Shape).Idx) (k : Fin 128) : ridx_main_v114 j k = ix2 k (j 1) :=
  funext fun a => Fin.ext (by match a with | ⟨0, _⟩ => rfl | ⟨1, _⟩ => rfl)
theorem r_idx116 (j : (⟨2, ![100000, 64]⟩ : Shape).Idx) : idx_main_v116 j = ix2 (0 : Fin 1) (j 1) :=
  funext fun a => Fin.ext (by match a with | ⟨0, _⟩ => rfl | ⟨1, _⟩ => rfl)

/-! ## The input projection -/

theorem ref_proj (x0 : (⟨S100000x128, .f32⟩ : BufTy).Contents (Elt Ideal)) (x3 : (⟨S128x128, .f32⟩ : BufTy).Contents (Elt Ideal)) (x4 : (⟨S128, .f32⟩ : BufTy).Contents (Elt Ideal)) :
    val_main_v37 (F := Ideal) x0 x3 x4 = proj (M := 100000) (K := 128) (N := 128) x0 (val_main_v32 (F := Ideal) x3) (val_main_v34 (F := Ideal) x4) := by
  funext j
  rw [val_main_v37_apply, val_main_v36_apply, val_main_v33_apply, val_main_v35_apply, val_main_call1_v0_apply,
    val_main_call1_cst_apply]
  generalize val_main_v32 (F := Ideal) x3 = w
  generalize val_main_v34 (F := Ideal) x4 = b
  unfold proj dense zeroW
  rw [r_idx35 j]
  simp only [r_lidx33, r_ridx33]
  rfl

/-! ## The propagation layers -/

/-- The initial-residual mix before the first propagation layer's product. -/
theorem r_mix1 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) :
    val_main_v55 (F := Ideal) x0 x1 x2 x3 x4 = mix (M := 100000) (N := 128) (val_main_v50 (F := Ideal) x0 x1 x2 x3 x4) (val_main_v37 (F := Ideal) x0 x3 x4) := by
  funext i
  rw [val_main_v55_apply, val_main_v52_apply, val_main_v54_apply, val_main_v51_apply, val_main_cst_9_apply,
    val_main_v53_apply, val_main_cst_10_apply]
  rfl

theorem ref_comb1 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v62 (F := Ideal) x0 x1 x2 x3 x4 x5 = comb (M := 100000) (K := 128) (Ideal.ofBits .f32 0x3F183370#32) (Ideal.ofBits .f32 0x3ECF991F#32) (val_main_v50 (F := Ideal) x0 x1 x2 x3 x4) (val_main_v37 (F := Ideal) x0 x3 x4) x5 := by
  funext j
  rw [val_main_v62_apply, val_main_v61_apply, val_main_v57_apply, val_main_v60_apply, val_main_v58_apply,
    val_main_v56_apply, val_main_cst_11_apply, val_main_v59_apply, val_main_cst_12_apply, val_main_call2_v0_apply,
    val_main_call2_cst_apply, r_mix1]
  generalize val_main_v50 (F := Ideal) x0 x1 x2 x3 x4 = A
  generalize val_main_v37 (F := Ideal) x0 x3 x4 = H
  unfold comb dense zeroW
  simp only [r_lidx58, r_ridx58]
  rfl

/-- The initial-residual mix before the second propagation layer's product. -/
theorem r_mix2 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v80 (F := Ideal) x0 x1 x2 x3 x4 x5 = mix (M := 100000) (N := 128) (val_main_v75 (F := Ideal) x0 x1 x2 x3 x4 x5) (val_main_v37 (F := Ideal) x0 x3 x4) := by
  funext i
  rw [val_main_v80_apply, val_main_v77_apply, val_main_v79_apply, val_main_v76_apply, val_main_cst_16_apply,
    val_main_v78_apply, val_main_cst_17_apply]
  rfl

theorem ref_comb2 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) :
    val_main_v87 (F := Ideal) x0 x1 x2 x3 x4 x5 x6 = comb (M := 100000) (K := 128) (Ideal.ofBits .f32 0x3F46E010#32) (Ideal.ofBits .f32 0x3E647FBE#32) (val_main_v75 (F := Ideal) x0 x1 x2 x3 x4 x5) (val_main_v37 (F := Ideal) x0 x3 x4) x6 := by
  funext j
  rw [val_main_v87_apply, val_main_v86_apply, val_main_v82_apply, val_main_v85_apply, val_main_v83_apply,
    val_main_v81_apply, val_main_cst_18_apply, val_main_v84_apply, val_main_cst_19_apply, val_main_call3_v0_apply,
    val_main_call3_cst_apply, r_mix2]
  generalize val_main_v75 (F := Ideal) x0 x1 x2 x3 x4 x5 = A
  generalize val_main_v37 (F := Ideal) x0 x3 x4 = H
  unfold comb dense zeroW
  simp only [r_lidx83, r_ridx83]
  rfl

/-- The initial-residual mix before the third propagation layer's product. -/
theorem r_mix3 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) :
    val_main_v105 (F := Ideal) x0 x1 x2 x3 x4 x5 x6 = mix (M := 100000) (N := 128) (val_main_v100 (F := Ideal) x0 x1 x2 x3 x4 x5 x6) (val_main_v37 (F := Ideal) x0 x3 x4) := by
  funext i
  rw [val_main_v105_apply, val_main_v102_apply, val_main_v104_apply, val_main_v101_apply, val_main_cst_23_apply,
    val_main_v103_apply, val_main_cst_24_apply]
  rfl

theorem ref_comb3 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128x128, .f32⟩ : BufTy).Contents (Elt Ideal)) :
    val_main_v112 (F := Ideal) x0 x1 x2 x3 x4 x5 x6 x7 = comb (M := 100000) (K := 128) (Ideal.ofBits .f32 0x3F588995#32) (Ideal.ofBits .f32 0x3E1DD9AD#32) (val_main_v100 (F := Ideal) x0 x1 x2 x3 x4 x5 x6) (val_main_v37 (F := Ideal) x0 x3 x4) x7 := by
  funext j
  rw [val_main_v112_apply, val_main_v111_apply, val_main_v107_apply, val_main_v110_apply, val_main_v108_apply,
    val_main_v106_apply, val_main_cst_25_apply, val_main_v109_apply, val_main_cst_26_apply, val_main_call4_v0_apply,
    val_main_call4_cst_apply, r_mix3]
  generalize val_main_v100 (F := Ideal) x0 x1 x2 x3 x4 x5 x6 = A
  generalize val_main_v37 (F := Ideal) x0 x3 x4 = H
  unfold comb dense zeroW
  simp only [r_lidx108, r_ridx108]
  rfl

/-! ## The output projection -/

theorem ref_out (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 x6 x7 : (⟨S128x128, .f32⟩ : BufTy).Contents (Elt Ideal)) (x8 : (⟨S64x128, .f32⟩ : BufTy).Contents (Elt Ideal)) (x9 : (⟨S64, .f32⟩ : BufTy).Contents (Elt Ideal)) :
    val_main_v117 (F := Ideal) x0 x1 x2 x3 x4 x5 x6 x7 x8 x9 = outp (M := 100000) (K := 128) (N := 64) (val_main_v112 (F := Ideal) x0 x1 x2 x3 x4 x5 x6 x7) (val_main_v113 (F := Ideal) x8) (val_main_v115 (F := Ideal) x9) := by
  funext j
  rw [val_main_v117_apply, val_main_v114_apply, val_main_v116_apply]
  generalize val_main_v112 (F := Ideal) x0 x1 x2 x3 x4 x5 x6 x7 = h
  generalize val_main_v113 (F := Ideal) x8 = w
  generalize val_main_v115 (F := Ideal) x9 = b
  unfold outp dense
  rw [r_idx116 j]
  simp only [r_lidx114, r_ridx114]
  rfl

end Cert.ReferenceIdeal.Dense
end
-- ==== Proof.RegionEnds.lean ====
/-
  What the first and the last dense region leave in their output arrays.

  The input projection computes max(x·wt + b, 0) and the output projection h·wt + b, each on row blocks of 5000
  rows over a grid of 20 points, the weight and the bias staged whole at every point. A block of the result is
  the layer applied to the matching block of rows, so the blocks written back tile one whole-array function of
  the arrays the region finds at entry.
-/
import proofs.«166128_j40999757808031_1_alg».proof.Proof.Gen.KernelIdeal.Frame
import proofs.«166128_j40999757808031_1_alg».proof.Proof.Spec
import proofs.«166128_j40999757808031_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionEnds

open Cert.KernelIdeal Cert.KernelIdeal.Gen Cert.Gcn Idealize.ShloMosaic Idealize.ShloMosaic.TcCoe Idealize.ShloMosaic.ValueIdx
open Idealize.ShloMosaic.Pipeline (Dat)

/-- The zero offsets of a whole-block access, as a constant function. -/
theorem p_hz : (![0, 0] : Fin 2 → Nat) = fun _ => 0 := funext fun a => by fin_cases a <;> rfl

/-! ## The bodies' arithmetic at an index -/

/-- The projection body on a block of rows is the projection layer on that block: the casts are the identity on the
    extended reals, the matrix unit's product into a zero accumulator is the contraction sum, the bias row is
    broadcast over the rows, and the maximum is taken against the zero word. -/
theorem p_pay0 (xb : Vec Ideal S5000x128 .f32) (w : Vec Ideal S128x128 .f32) (b : Vec Ideal S1x128 .f32)
    (p : Fin 5000) (q : Fin 128) :
    k0_pay1 (F := Ideal) xb w b (ix2 p q) = proj (M := 5000) (K := 128) (N := 128) xb w b (ix2 p q) := by
  unfold k0_pay1
  simp only [shapeCast_self]
  refine congrArg₂ max (congrArg₂ (· + ·) ?_ ?_) rfl
  · exact Cert.PlainDot.matmul_zero_apply 5000 128 128 (φ₁ := .bf16) (φ₂ := .bf16) none _ _ (ix2 p q)
  · exact broadcastTo_1b_ab_apply b _ p q

/-- The output body on a block of rows is the output layer on that block: the contraction sum of the block's rows
    with the weight, plus the bias row broadcast over the rows. -/
theorem p_pay4 (hb : Vec Ideal S5000x128 .f32) (w : Vec Ideal S128x64 .f32) (b : Vec Ideal S1x64 .f32)
    (p : Fin 5000) (q : Fin 64) :
    k4_pay1 (F := Ideal) hb w b (ix2 p q) = outp (M := 5000) (K := 128) (N := 64) hb w b (ix2 p q) := by
  unfold k4_pay1
  simp only [shapeCast_self]
  refine congrArg₂ (· + ·) ?_ ?_
  · exact Cert.PlainDot.matmul_zero_apply 5000 128 64 (φ₁ := .bf16) (φ₂ := .bf16) none _ _ (ix2 p q)
  · exact broadcastTo_1b_ab_apply b _ p q

/-- A block of the projection body's result is the layer on the whole arrays, at the block's rows: when row `p` of
    the block `xb` is row `r` of `x`, the body's value at `(p, q)` is the projection of `x` at `(r, q)`. -/
theorem p_block0 (x : Mat 100000 128) (w : Mat 128 128) (b : Mat 1 128) (xb : Vec Ideal S5000x128 .f32)
    (p : Fin 5000) (q : Fin 128) (r : Fin 100000) (hx : ∀ k : Fin 128, xb (ix2 p k) = x (ix2 r k)) :
    k0_pay1 (F := Ideal) xb w b (ix2 p q) = proj (M := 100000) (K := 128) (N := 128) x w b (ix2 r q) :=
  (p_pay0 xb w b p q).trans (proj_rows xb x w b p r q hx)

/-- The same for the output body: when row `p` of the block `hb` is row `r` of `h`, the body's value at `(p, q)`
    is the output layer of `h` at `(r, q)`. -/
theorem p_block4 (h : Mat 100000 128) (w : Mat 128 64) (b : Mat 1 64) (hb : Vec Ideal S5000x128 .f32)
    (p : Fin 5000) (q : Fin 64) (r : Fin 100000) (hx : ∀ k : Fin 128, hb (ix2 p k) = h (ix2 r k)) :
    k4_pay1 (F := Ideal) hb w b (ix2 p q) = outp (M := 100000) (K := 128) (N := 64) h w b (ix2 r q) :=
  (p_pay4 hb w b p q).trans (outp_rows hb h w b p r q hx)

variable (V : (c : Dev nD) → (b : Ref sig .tc) → Buf (Elt Ideal) ((c : Thread nD τ).loc b))

/-! ## Region 0: the input projection -/

/-- The windows' block indices at every point of the grid: the row-blocked windows (the input rows and the output) are at
    block `t` on the row axis and at block 0 on the column axis; the weight and the bias are at block 0 throughout. -/
theorem p_idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of input rows at point `t` holds rows `t·5000 …` of the array the region finds. -/
theorem p_in0_0 (c : Dev nD) (t : Fin cfg0.N) (p : Fin 5000) (k : Fin 128) (r : Fin 100000) (hr : r.val = t.val * 5000 + p.val) :
    (iblk0 (F := Ideal) V c 0 t : Vec Ideal S5000x128 .f32) (ix2 p k) = (V c main_arg0 : Mat 100000 128) (ix2 r k) := by
  obtain ⟨e0, e1, -⟩ := p_idx0 t
  unfold iblk0
  rw [View.read_apply, cast_eq]
  show V c main_arg0 _ = V c main_arg0 _
  refine congrArg (V c main_arg0) (funext fun a => Fin.ext ?_)
  match a with
  | ⟨0, _⟩ => show win0_0.index t 0 * 5000 + 1 * p.val = r.val; omega
  | ⟨1, _⟩ => show win0_0.index t 1 * 128 + 1 * k.val = k.val; omega

/-- The weight window's block at every point is the whole weight array. -/
theorem p_in0_1 (c : Dev nD) (t : Fin cfg0.N) :
    (iblk0 (F := Ideal) V c 1 t : Vec Ideal S128x128 .f32) = (V c main_v32 : Mat 128 128) := by
  obtain ⟨-, -, e0, e1, -⟩ := p_idx0 t
  funext y
  unfold iblk0
  rw [View.read_apply, cast_eq]
  show V c main_v32 _ = V c main_v32 _
  refine congrArg (V c main_v32) (funext fun a => Fin.ext ?_)
  match a with
  | ⟨0, _⟩ => show win0_1.index t 0 * 128 + 1 * (y 0).val = (y 0).val; omega
  | ⟨1, _⟩ => show win0_1.index t 1 * 128 + 1 * (y 1).val = (y 1).val; omega

/-- The bias window's block at every point is the whole bias row. -/
theorem p_in0_2 (c : Dev nD) (t : Fin cfg0.N) :
    (iblk0 (F := Ideal) V c 2 t : Vec Ideal S1x128 .f32) = (V c main_v33 : Mat 1 128) := by
  obtain ⟨-, -, -, -, e0, e1, -⟩ := p_idx0 t
  funext y
  unfold iblk0
  rw [View.read_apply, cast_eq]
  show V c main_v33 _ = V c main_v33 _
  refine congrArg (V c main_v33) (funext fun a => Fin.ext ?_)
  match a with
  | ⟨0, _⟩ => show win0_2.index t 0 * 1 + 1 * (y 0).val = (y 0).val; omega
  | ⟨1, _⟩ => show win0_2.index t 1 * 128 + 1 * (y 1).val = (y 1).val; omega

/-- What point `t` writes back is block `t` of the projection of the arrays the region finds. -/
theorem p_flushed0 (c : Dev nD) (t : Fin cfg0.N) :
    (dat0 (F := Ideal) V c).flushed 3 t
      = ((cfg0.win 3).blk t).view.read (Elt Ideal)
          (proj (M := 100000) (K := 128) (N := 128) (V c main_arg0) (V c main_v32) (V c main_v33)) := by
  obtain ⟨-, -, -, -, -, -, e0, e1⟩ := p_idx0 t
  show (cfg0.win 3).cut (grid0.coords t) ((dat0 V c).after 3 t) = _
  rw [after0_3]
  unfold out0_3
  rw [View.canon_unit_zero p_hz]
  simp only [View.ld_unit_zero (S := S5000x128) p_hz, View.ld_unit_zero (S := S128x128) p_hz, View.ld_unit_zero (S := S1x128) p_hz]
  funext j
  rw [View.read_apply, cast_eq]
  have ht : t.val < 20 := N_0 ▸ t.isLt
  have hj0 : (j 0).val < 5000 := (j 0).isLt
  have hj1 : (j 1).val < 128 := (j 1).isLt
  have hxi : (cfg0.win 3).xinj (grid0.coords t) j = ix2 (⟨(j 0).val, hj0⟩ : Fin 5000) (⟨(j 1).val, hj1⟩ : Fin 128) :=
    funext (Fin.forall_fin_two.mpr ⟨rfl, rfl⟩)
  have hemb : ((cfg0.win 3).blk t).view.emb j
      = ix2 (⟨t.val * 5000 + (j 0).val, by omega⟩ : Fin 100000) (⟨(j 1).val, hj1⟩ : Fin 128) := by
    funext a; apply Fin.ext
    match a with
    | ⟨0, _⟩ => show win0_3.index t 0 * 5000 + 1 * (j 0).val = t.val * 5000 + (j 0).val; omega
    | ⟨1, _⟩ => show win0_3.index t 1 * 128 + 1 * (j 1).val = (j 1).val; omega
  show k0_pay1 (F := Ideal) (iblk0 V c 0 t) (iblk0 V c 1 t) (iblk0 V c 2 t) ((cfg0.win 3).xinj (grid0.coords t) j)
      = proj (M := 100000) (K := 128) (N := 128) (V c main_arg0) (V c main_v32) (V c main_v33) (((cfg0.win 3).blk t).view.emb j)
  refine (congrArg (k0_pay1 (F := Ideal) (iblk0 V c 0 t) (iblk0 V c 1 t) (iblk0 V c 2 t)) hxi).trans ?_
  refine Eq.trans ?_ (congrArg (proj (M := 100000) (K := 128) (N := 128) (V c main_arg0) (V c main_v32) (V c main_v33)) hemb).symm
  refine (p_block0 (V c main_arg0) (iblk0 V c 1 t) (iblk0 V c 2 t) (iblk0 V c 0 t) ⟨(j 0).val, hj0⟩ ⟨(j 1).val, hj1⟩
    ⟨t.val * 5000 + (j 0).val, by omega⟩
    (fun k => p_in0_0 V c t ⟨(j 0).val, hj0⟩ k ⟨t.val * 5000 + (j 0).val, by omega⟩ rfl)).trans ?_
  rw [p_in0_1 V c t, p_in0_2 V c t]

/-- Every index of the output array lies in the block of the point its row selects: row `r` in block `r / 5000`. -/
theorem p_cover0 (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e0, e1⟩ := p_idx0 t
  refine ⟨t, flush0_3 t, ?_⟩
  show i ∈ ((View.whole main_v34).slice (win0_3.rect t)).set
  rw [View.set_slice_whole, Rect.mem_set_unit]
  intro a
  match a with
  | ⟨0, _⟩ => show win0_3.index t 0 * 5000 ≤ (i 0).val ∧ (i 0).val < win0_3.index t 0 * 5000 + 5000; omega
  | ⟨1, _⟩ => show win0_3.index t 1 * 128 ≤ (i 1).val ∧ (i 1).val < win0_3.index t 1 * 128 + 128; omega

/-- THE INPUT PROJECTION'S OUTPUT ARRAY after the region: max(x·wt + b, 0) of the arrays the region finds. -/
theorem region0_val (c : Dev nD) :
    (dat0 (F := Ideal) V c).arrAt 3 cfg0.N
      = proj (M := 100000) (K := 128) (N := 128) (V c main_arg0) (V c main_v32) (V c main_v33) :=
  (dat0 (F := Ideal) V c).arrAt_eq_of_cover 3
    (proj (M := 100000) (K := 128) (N := 128) (V c main_arg0) (V c main_v32) (V c main_v33))
    (fun t _ => p_flushed0 V c t) (p_cover0 c)

/-! ## Region 4: the output projection -/

/-- The windows' block indices at every point of the grid: the row-blocked windows (the input rows and the output) are at
    block `t` on the row axis and at block 0 on the column axis; the weight and the bias are at block 0 throughout. -/
theorem p_idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The block of input rows at point `t` holds rows `t·5000 …` of the array the region finds. -/
theorem p_in4_0 (c : Dev nD) (t : Fin cfg4.N) (p : Fin 5000) (k : Fin 128) (r : Fin 100000) (hr : r.val = t.val * 5000 + p.val) :
    (iblk4 (F := Ideal) V c 0 t : Vec Ideal S5000x128 .f32) (ix2 p k) = (V c main_v76 : Mat 100000 128) (ix2 r k) := by
  obtain ⟨e0, e1, -⟩ := p_idx4 t
  unfold iblk4
  rw [View.read_apply, cast_eq]
  show V c main_v76 _ = V c main_v76 _
  refine congrArg (V c main_v76) (funext fun a => Fin.ext ?_)
  match a with
  | ⟨0, _⟩ => show win4_0.index t 0 * 5000 + 1 * p.val = r.val; omega
  | ⟨1, _⟩ => show win4_0.index t 1 * 128 + 1 * k.val = k.val; omega

/-- The weight window's block at every point is the whole weight array. -/
theorem p_in4_1 (c : Dev nD) (t : Fin cfg4.N) :
    (iblk4 (F := Ideal) V c 1 t : Vec Ideal S128x64 .f32) = (V c main_v77 : Mat 128 64) := by
  obtain ⟨-, -, e0, e1, -⟩ := p_idx4 t
  funext y
  unfold iblk4
  rw [View.read_apply, cast_eq]
  show V c main_v77 _ = V c main_v77 _
  refine congrArg (V c main_v77) (funext fun a => Fin.ext ?_)
  match a with
  | ⟨0, _⟩ => show win4_1.index t 0 * 128 + 1 * (y 0).val = (y 0).val; omega
  | ⟨1, _⟩ => show win4_1.index t 1 * 64 + 1 * (y 1).val = (y 1).val; omega

/-- The bias window's block at every point is the whole bias row. -/
theorem p_in4_2 (c : Dev nD) (t : Fin cfg4.N) :
    (iblk4 (F := Ideal) V c 2 t : Vec Ideal S1x64 .f32) = (V c main_v78 : Mat 1 64) := by
  obtain ⟨-, -, -, -, e0, e1, -⟩ := p_idx4 t
  funext y
  unfold iblk4
  rw [View.read_apply, cast_eq]
  show V c main_v78 _ = V c main_v78 _
  refine congrArg (V c main_v78) (funext fun a => Fin.ext ?_)
  match a with
  | ⟨0, _⟩ => show win4_2.index t 0 * 1 + 1 * (y 0).val = (y 0).val; omega
  | ⟨1, _⟩ => show win4_2.index t 1 * 64 + 1 * (y 1).val = (y 1).val; omega

/-- What point `t` writes back is block `t` of the output layer of the arrays the region finds. -/
theorem p_flushed4 (c : Dev nD) (t : Fin cfg4.N) :
    (dat4 (F := Ideal) V c).flushed 3 t
      = ((cfg4.win 3).blk t).view.read (Elt Ideal)
          (outp (M := 100000) (K := 128) (N := 64) (V c main_v76) (V c main_v77) (V c main_v78)) := by
  obtain ⟨-, -, -, -, -, -, e0, e1⟩ := p_idx4 t
  show (cfg4.win 3).cut (grid4.coords t) ((dat4 V c).after 3 t) = _
  rw [after4_3]
  unfold out4_3
  rw [View.canon_unit_zero p_hz]
  simp only [View.ld_unit_zero (S := S5000x128) p_hz, View.ld_unit_zero (S := S128x64) p_hz, View.ld_unit_zero (S := S1x64) p_hz]
  funext j
  rw [View.read_apply, cast_eq]
  have ht : t.val < 20 := N_4 ▸ t.isLt
  have hj0 : (j 0).val < 5000 := (j 0).isLt
  have hj1 : (j 1).val < 64 := (j 1).isLt
  have hxi : (cfg4.win 3).xinj (grid4.coords t) j = ix2 (⟨(j 0).val, hj0⟩ : Fin 5000) (⟨(j 1).val, hj1⟩ : Fin 64) :=
    funext (Fin.forall_fin_two.mpr ⟨rfl, rfl⟩)
  have hemb : ((cfg4.win 3).blk t).view.emb j
      = ix2 (⟨t.val * 5000 + (j 0).val, by omega⟩ : Fin 100000) (⟨(j 1).val, hj1⟩ : Fin 64) := by
    funext a; apply Fin.ext
    match a with
    | ⟨0, _⟩ => show win4_3.index t 0 * 5000 + 1 * (j 0).val = t.val * 5000 + (j 0).val; omega
    | ⟨1, _⟩ => show win4_3.index t 1 * 64 + 1 * (j 1).val = (j 1).val; omega
  show k4_pay1 (F := Ideal) (iblk4 V c 0 t) (iblk4 V c 1 t) (iblk4 V c 2 t) ((cfg4.win 3).xinj (grid4.coords t) j)
      = outp (M := 100000) (K := 128) (N := 64) (V c main_v76) (V c main_v77) (V c main_v78) (((cfg4.win 3).blk t).view.emb j)
  refine (congrArg (k4_pay1 (F := Ideal) (iblk4 V c 0 t) (iblk4 V c 1 t) (iblk4 V c 2 t)) hxi).trans ?_
  refine Eq.trans ?_ (congrArg (outp (M := 100000) (K := 128) (N := 64) (V c main_v76) (V c main_v77) (V c main_v78)) hemb).symm
  refine (p_block4 (V c main_v76) (iblk4 V c 1 t) (iblk4 V c 2 t) (iblk4 V c 0 t) ⟨(j 0).val, hj0⟩ ⟨(j 1).val, hj1⟩
    ⟨t.val * 5000 + (j 0).val, by omega⟩
    (fun k => p_in4_0 V c t ⟨(j 0).val, hj0⟩ k ⟨t.val * 5000 + (j 0).val, by omega⟩ rfl)).trans ?_
  rw [p_in4_1 V c t, p_in4_2 V c t]

/-- Every index of the output array lies in the block of the point its row selects: row `r` in block `r / 5000`. -/
theorem p_cover4 (c : Dev nD) (i : ((cfg4.win 3).arr.view.loc (c.tc : Thread nD τ)).2.ty.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, e0, e1⟩ := p_idx4 t
  refine ⟨t, flush4_3 t, ?_⟩
  show i ∈ ((View.whole main_v79).slice (win4_3.rect t)).set
  rw [View.set_slice_whole, Rect.mem_set_unit]
  intro a
  match a with
  | ⟨0, _⟩ => show win4_3.index t 0 * 5000 ≤ (i 0).val ∧ (i 0).val < win4_3.index t 0 * 5000 + 5000; omega
  | ⟨1, _⟩ => show win4_3.index t 1 * 64 ≤ (i 1).val ∧ (i 1).val < win4_3.index t 1 * 64 + 64; omega

/-- THE OUTPUT PROJECTION'S OUTPUT ARRAY after the region: h·wt + b of the arrays the region finds. -/
theorem region4_val (c : Dev nD) :
    (dat4 (F := Ideal) V c).arrAt 3 cfg4.N
      = outp (M := 100000) (K := 128) (N := 64) (V c main_v76) (V c main_v77) (V c main_v78) :=
  (dat4 (F := Ideal) V c).arrAt_eq_of_cover 3
    (outp (M := 100000) (K := 128) (N := 64) (V c main_v76) (V c main_v77) (V c main_v78))
    (fun t _ => p_flushed4 V c t) (p_cover4 c)

end Cert.KernelIdeal.RegionEnds

end
-- ==== Proof.RegionComb.lean ====
/-
  The three propagation layers of the kernel program, as whole-array functions.

  Each layer is a pipelined region over 20 row blocks of 5000 rows.  At one grid point the body computes, from the
  block of aggregated features, the matching block of the first layer's features and the whole weight matrix,
  z = 0.9·agg + 0.1·h0 and max(ca·z + cb·(z·w), 0): this is the layer `comb` on a block of rows.  Because the layer
  acts row by row, the block that point t writes back is block t of `comb` of the whole arrays, and the 20 blocks
  cover the 100000 rows, so the output array ends holding `comb` of the arrays the region found at entry.
-/
import proofs.«166128_j40999757808031_1_alg».proof.Proof.Gen.KernelIdeal.Frame
import proofs.«166128_j40999757808031_1_alg».proof.Proof.Spec
import proofs.«166128_j40999757808031_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionComb

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem k_hz : (![0, 0] : Fin 2 → Nat) = fun _ => 0 := funext fun a => by fin_cases a <;> rfl

/-- The matrix unit's product of a block with the weight, into the zero accumulator, is the matrix product. -/
theorem k_mm (l : FVec Ideal S5000x128 .bf16) (w : FVec Ideal S128x128 .bf16) (j : S5000x128.Idx) :
    matmul dot_S5000x128_S128x128_S5000x128_1_0_0_1_n_n none l w (constant S5000x128 .f32 0x00000000#32) j
      = dense (M := 5000) (K := 128) (N := 128) l w j :=
  Cert.PlainDot.matmul_zero_apply 5000 128 128 none l w j

/-! ## The first propagation layer -/

/-- The body's arithmetic at an index of a block: the layer on the block of rows. -/
theorem k_pay1 (xb hb : Vec Ideal S5000x128 .f32) (w : Vec Ideal S128x128 .f32) (j : S5000x128.Idx) :
    k1_pay1 (F := Ideal) xb hb w j
      = comb (M := 5000) (K := 128) (Ideal.ofBits .f32 0x3F183370#32) (Ideal.ofBits .f32 0x3ECF991F#32) xb hb w j := by
  unfold k1_pay1
  simp only [maximumf_apply, addf_apply, mulf_apply, broadcast_apply, shapeCast_self]
  rw [k_mm]
  rfl

/-- The printed index maps over the grid: a row-blocked window sits at block (t, 0) at point t, the weight at (0, 0). -/
theorem k_idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the aggregated features' block at point t is row 5000·t + p of the array. -/
theorem k_blk1_0 (c : Dev nD) (t : Fin cfg1.N) (p : Fin 5000) (q : Fin 128) (r : Fin 100000) (hr : r.val = t.val * 5000 + p.val) :
    (iblk1 (F := Ideal) V c 0 t : Vec Ideal S5000x128 .f32) (ix2 p q) = (V c main_v47 : S100000x128.Idx → EReal) (ix2 r q) := by
  obtain ⟨e0, e1, -⟩ := k_idx1 t
  unfold iblk1
  rw [View.read_apply, cast_eq]
  show V c main_v47 _ = V c main_v47 _
  refine congrArg (V c main_v47) ?_
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

/-- Row p of the first layer's features' block at point t is row 5000·t + p of the array. -/
theorem k_blk1_1 (c : Dev nD) (t : Fin cfg1.N) (p : Fin 5000) (q : Fin 128) (r : Fin 100000) (hr : r.val = t.val * 5000 + p.val) :
    (iblk1 (F := Ideal) V c 1 t : Vec Ideal S5000x128 .f32) (ix2 p q) = (V c main_v34 : S100000x128.Idx → EReal) (ix2 r q) := by
  obtain ⟨-, -, e2, e3, -⟩ := k_idx1 t
  unfold iblk1
  rw [View.read_apply, cast_eq]
  show V c main_v34 _ = V c main_v34 _
  refine congrArg (V c main_v34) ?_
  funext a; apply Fin.ext
  match a with
  | ⟨0, _⟩ => show win1_1.index t (0 : Fin 2) * 5000 + 1 * p.val = r.val; omega
  | ⟨1, _⟩ => show win1_1.index t (1 : Fin 2) * 128 + 1 * q.val = q.val; omega

/-- The weight's block at every point is the whole weight matrix. -/
theorem k_blk1_2 (c : Dev nD) (t : Fin cfg1.N) :
    (iblk1 (F := Ideal) V c 2 t : Vec Ideal S128x128 .f32) = (V c main_arg5 : S128x128.Idx → EReal) := by
  obtain ⟨-, -, -, -, e4, e5, -⟩ := k_idx1 t
  funext j
  unfold iblk1
  rw [View.read_apply, cast_eq]
  show V c main_arg5 _ = V c main_arg5 _
  refine congrArg (V c main_arg5) ?_
  funext a; apply Fin.ext
  match a with
  | ⟨0, _⟩ => show win1_2.index t (0 : Fin 2) * 128 + 1 * (j 0).val = (j 0).val; omega
  | ⟨1, _⟩ => show win1_2.index t (1 : Fin 2) * 128 + 1 * (j 1).val = (j 1).val; omega

/-- One entry of the body's result on blocks of rows: the layer of the whole arrays at the row the block row sits at. -/
theorem k_point1 (xb hb : Vec Ideal S5000x128 .f32) (w : Vec Ideal S128x128 .f32) (A H : Mat 100000 128) (W : Mat 128 128)
    (p : Fin 5000) (r : Fin 100000) (q : Fin 128)
    (hx : ∀ k : Fin 128, xb (ix2 p k) = A (ix2 r k)) (hh : ∀ k : Fin 128, hb (ix2 p k) = H (ix2 r k)) (hw : w = W) :
    k1_pay1 (F := Ideal) xb hb w (ix2 p q)
      = comb (M := 100000) (K := 128) (Ideal.ofBits .f32 0x3F183370#32) (Ideal.ofBits .f32 0x3ECF991F#32) A H W (ix2 r q) := by
  subst hw
  exact (k_pay1 xb hb w (ix2 p q)).trans
    (comb_rows (Ideal.ofBits .f32 0x3F183370#32) (Ideal.ofBits .f32 0x3ECF991F#32) xb hb A H w p r q hx hh)

/-- What point t writes back is block t of the layer of the arrays the region found. -/
theorem k_flushed1 (c : Dev nD) (t : Fin cfg1.N) :
    (dat1 (F := Ideal) V c).flushed 3 t = ((cfg1.win 3).blk t).view.read (Elt Ideal)
      (comb (M := 100000) (K := 128) (Ideal.ofBits .f32 0x3F183370#32) (Ideal.ofBits .f32 0x3ECF991F#32)
        (V c main_v47) (V c main_v34) (V c main_arg5)) := by
  show (cfg1.win 3).cut (grid1.coords t) ((dat1 V c).after 3 t) = _
  rw [after1_3]
  unfold out1_3
  rw [View.canon_unit_zero k_hz]
  simp only [View.ld_unit_zero (S := S5000x128) k_hz, View.ld_unit_zero (S := S128x128) k_hz]
  obtain ⟨-, -, -, -, -, -, e6, e7⟩ := k_idx1 t
  have ht : t.val < 20 := lt_of_lt_of_eq t.isLt N_1
  funext y
  have hy0 : (y 0).val < 5000 := (y 0).isLt
  have hy1 : (y 1).val < 128 := (y 1).isLt
  rw [View.read_apply, cast_eq]
  have hp : (cfg1.win 3).xinj (grid1.coords t) y = ix2 (⟨(y 0).val, hy0⟩ : Fin 5000) (⟨(y 1).val, hy1⟩ : Fin 128) :=
    funext (Fin.forall_fin_two.mpr ⟨rfl, rfl⟩)
  have hr : ((cfg1.win 3).blk t).view.emb y
      = ix2 (⟨t.val * 5000 + (y 0).val, by omega⟩ : Fin 100000) (⟨(y 1).val, hy1⟩ : Fin 128) := by
    funext a; apply Fin.ext
    match a with
    | ⟨0, _⟩ => show win1_3.index t (0 : Fin 2) * 5000 + 1 * (y 0).val = t.val * 5000 + (y 0).val; omega
    | ⟨1, _⟩ => show win1_3.index t (1 : Fin 2) * 128 + 1 * (y 1).val = (y 1).val; omega
  refine (congrArg (k1_pay1 (F := Ideal) (iblk1 V c 0 t) (iblk1 V c 1 t) (iblk1 V c 2 t)) hp).trans ?_
  refine Eq.trans ?_ (congrArg (comb (M := 100000) (K := 128) (Ideal.ofBits .f32 0x3F183370#32) (Ideal.ofBits .f32 0x3ECF991F#32)
    (V c main_v47) (V c main_v34) (V c main_arg5)) hr.symm)
  exact k_point1 (iblk1 V c 0 t) (iblk1 V c 1 t) (iblk1 V c 2 t) (V c main_v47) (V c main_v34) (V c main_arg5)
    (⟨(y 0).val, hy0⟩ : Fin 5000) (⟨t.val * 5000 + (y 0).val, by omega⟩ : Fin 100000) (⟨(y 1).val, hy1⟩ : Fin 128)
    (fun k => k_blk1_0 V c t ⟨(y 0).val, hy0⟩ k ⟨t.val * 5000 + (y 0).val, by omega⟩ rfl)
    (fun k => k_blk1_1 V c t ⟨(y 0).val, hy0⟩ k ⟨t.val * 5000 + (y 0).val, by omega⟩ rfl)
    (k_blk1_2 V c t)

/-- An index of the output array is in point t's block iff each coordinate is in the block's range on its axis. -/
theorem k_mem1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v48).slice (win1_3.rect t)).set ↔ _
  rw [View.set_slice_whole, Rect.mem_set_unit]
  exact Iff.rfl

/-- Row r of the output array is in the block of point r / 5000, which is written back. -/
theorem k_cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  obtain ⟨-, -, -, -, -, -, e6, e7⟩ := k_idx1 ⟨(i 0).val / 5000, hN⟩
  have e6' : win1_3.index ⟨(i 0).val / 5000, hN⟩ (0 : Fin 2) = (i 0).val / 5000 := e6
  refine ⟨⟨(i 0).val / 5000, hN⟩, flush1_3 _, ?_⟩
  rw [k_mem1]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    omega
  | ⟨1, _⟩ =>
    show win1_3.index ⟨(i 0).val / 5000, hN⟩ (1 : Fin 2) * 128 ≤ (i 1).val
      ∧ (i 1).val < win1_3.index ⟨(i 0).val / 5000, hN⟩ (1 : Fin 2) * 128 + 128
    omega

/-- The first propagation layer's output array after the region: the layer of the arrays found at entry. -/
theorem region1_val (c : Dev nD) :
    (dat1 (F := Ideal) V c).arrAt 3 cfg1.N
      = comb (M := 100000) (K := 128) (Ideal.ofBits .f32 0x3F183370#32) (Ideal.ofBits .f32 0x3ECF991F#32)
          (V c main_v47) (V c main_v34) (V c main_arg5) :=
  (dat1 (F := Ideal) V c).arrAt_eq_of_cover 3 _ (fun t _ => k_flushed1 V c t) k_cover1

/-! ## The second propagation layer -/

/-- The body's arithmetic at an index of a block: the layer on the block of rows. -/
theorem k_pay2 (xb hb : Vec Ideal S5000x128 .f32) (w : Vec Ideal S128x128 .f32) (j : S5000x128.Idx) :
    k2_pay1 (F := Ideal) xb hb w j
      = comb (M := 5000) (K := 128) (Ideal.ofBits .f32 0x3F46E010#32) (Ideal.ofBits .f32 0x3E647FBE#32) xb hb w j := by
  unfold k2_pay1
  simp only [maximumf_apply, addf_apply, mulf_apply, broadcast_apply, shapeCast_self]
  rw [k_mm]
  rfl

/-- The printed index maps over the grid: a row-blocked window sits at block (t, 0) at point t, the weight at (0, 0). -/
theorem k_idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the aggregated features' block at point t is row 5000·t + p of the array. -/
theorem k_blk2_0 (c : Dev nD) (t : Fin cfg2.N) (p : Fin 5000) (q : Fin 128) (r : Fin 100000) (hr : r.val = t.val * 5000 + p.val) :
    (iblk2 (F := Ideal) V c 0 t : Vec Ideal S5000x128 .f32) (ix2 p q) = (V c main_v61 : S100000x128.Idx → EReal) (ix2 r q) := by
  obtain ⟨e0, e1, -⟩ := k_idx2 t
  unfold iblk2
  rw [View.read_apply, cast_eq]
  show V c main_v61 _ = V c main_v61 _
  refine congrArg (V c main_v61) ?_
  funext a; apply Fin.ext
  match a with
  | ⟨0, _⟩ => show win2_0.index t (0 : Fin 2) * 5000 + 1 * p.val = r.val; omega
  | ⟨1, _⟩ => show win2_0.index t (1 : Fin 2) * 128 + 1 * q.val = q.val; omega

/-- Row p of the first layer's features' block at point t is row 5000·t + p of the array. -/
theorem k_blk2_1 (c : Dev nD) (t : Fin cfg2.N) (p : Fin 5000) (q : Fin 128) (r : Fin 100000) (hr : r.val = t.val * 5000 + p.val) :
    (iblk2 (F := Ideal) V c 1 t : Vec Ideal S5000x128 .f32) (ix2 p q) = (V c main_v34 : S100000x128.Idx → EReal) (ix2 r q) := by
  obtain ⟨-, -, e2, e3, -⟩ := k_idx2 t
  unfold iblk2
  rw [View.read_apply, cast_eq]
  show V c main_v34 _ = V c main_v34 _
  refine congrArg (V c main_v34) ?_
  funext a; apply Fin.ext
  match a with
  | ⟨0, _⟩ => show win2_1.index t (0 : Fin 2) * 5000 + 1 * p.val = r.val; omega
  | ⟨1, _⟩ => show win2_1.index t (1 : Fin 2) * 128 + 1 * q.val = q.val; omega

/-- The weight's block at every point is the whole weight matrix. -/
theorem k_blk2_2 (c : Dev nD) (t : Fin cfg2.N) :
    (iblk2 (F := Ideal) V c 2 t : Vec Ideal S128x128 .f32) = (V c main_arg6 : S128x128.Idx → EReal) := by
  obtain ⟨-, -, -, -, e4, e5, -⟩ := k_idx2 t
  funext j
  unfold iblk2
  rw [View.read_apply, cast_eq]
  show V c main_arg6 _ = V c main_arg6 _
  refine congrArg (V c main_arg6) ?_
  funext a; apply Fin.ext
  match a with
  | ⟨0, _⟩ => show win2_2.index t (0 : Fin 2) * 128 + 1 * (j 0).val = (j 0).val; omega
  | ⟨1, _⟩ => show win2_2.index t (1 : Fin 2) * 128 + 1 * (j 1).val = (j 1).val; omega

/-- One entry of the body's result on blocks of rows: the layer of the whole arrays at the row the block row sits at. -/
theorem k_point2 (xb hb : Vec Ideal S5000x128 .f32) (w : Vec Ideal S128x128 .f32) (A H : Mat 100000 128) (W : Mat 128 128)
    (p : Fin 5000) (r : Fin 100000) (q : Fin 128)
    (hx : ∀ k : Fin 128, xb (ix2 p k) = A (ix2 r k)) (hh : ∀ k : Fin 128, hb (ix2 p k) = H (ix2 r k)) (hw : w = W) :
    k2_pay1 (F := Ideal) xb hb w (ix2 p q)
      = comb (M := 100000) (K := 128) (Ideal.ofBits .f32 0x3F46E010#32) (Ideal.ofBits .f32 0x3E647FBE#32) A H W (ix2 r q) := by
  subst hw
  exact (k_pay2 xb hb w (ix2 p q)).trans
    (comb_rows (Ideal.ofBits .f32 0x3F46E010#32) (Ideal.ofBits .f32 0x3E647FBE#32) xb hb A H w p r q hx hh)

/-- What point t writes back is block t of the layer of the arrays the region found. -/
theorem k_flushed2 (c : Dev nD) (t : Fin cfg2.N) :
    (dat2 (F := Ideal) V c).flushed 3 t = ((cfg2.win 3).blk t).view.read (Elt Ideal)
      (comb (M := 100000) (K := 128) (Ideal.ofBits .f32 0x3F46E010#32) (Ideal.ofBits .f32 0x3E647FBE#32)
        (V c main_v61) (V c main_v34) (V c main_arg6)) := by
  show (cfg2.win 3).cut (grid2.coords t) ((dat2 V c).after 3 t) = _
  rw [after2_3]
  unfold out2_3
  rw [View.canon_unit_zero k_hz]
  simp only [View.ld_unit_zero (S := S5000x128) k_hz, View.ld_unit_zero (S := S128x128) k_hz]
  obtain ⟨-, -, -, -, -, -, e6, e7⟩ := k_idx2 t
  have ht : t.val < 20 := lt_of_lt_of_eq t.isLt N_2
  funext y
  have hy0 : (y 0).val < 5000 := (y 0).isLt
  have hy1 : (y 1).val < 128 := (y 1).isLt
  rw [View.read_apply, cast_eq]
  have hp : (cfg2.win 3).xinj (grid2.coords t) y = ix2 (⟨(y 0).val, hy0⟩ : Fin 5000) (⟨(y 1).val, hy1⟩ : Fin 128) :=
    funext (Fin.forall_fin_two.mpr ⟨rfl, rfl⟩)
  have hr : ((cfg2.win 3).blk t).view.emb y
      = ix2 (⟨t.val * 5000 + (y 0).val, by omega⟩ : Fin 100000) (⟨(y 1).val, hy1⟩ : Fin 128) := by
    funext a; apply Fin.ext
    match a with
    | ⟨0, _⟩ => show win2_3.index t (0 : Fin 2) * 5000 + 1 * (y 0).val = t.val * 5000 + (y 0).val; omega
    | ⟨1, _⟩ => show win2_3.index t (1 : Fin 2) * 128 + 1 * (y 1).val = (y 1).val; omega
  refine (congrArg (k2_pay1 (F := Ideal) (iblk2 V c 0 t) (iblk2 V c 1 t) (iblk2 V c 2 t)) hp).trans ?_
  refine Eq.trans ?_ (congrArg (comb (M := 100000) (K := 128) (Ideal.ofBits .f32 0x3F46E010#32) (Ideal.ofBits .f32 0x3E647FBE#32)
    (V c main_v61) (V c main_v34) (V c main_arg6)) hr.symm)
  exact k_point2 (iblk2 V c 0 t) (iblk2 V c 1 t) (iblk2 V c 2 t) (V c main_v61) (V c main_v34) (V c main_arg6)
    (⟨(y 0).val, hy0⟩ : Fin 5000) (⟨t.val * 5000 + (y 0).val, by omega⟩ : Fin 100000) (⟨(y 1).val, hy1⟩ : Fin 128)
    (fun k => k_blk2_0 V c t ⟨(y 0).val, hy0⟩ k ⟨t.val * 5000 + (y 0).val, by omega⟩ rfl)
    (fun k => k_blk2_1 V c t ⟨(y 0).val, hy0⟩ k ⟨t.val * 5000 + (y 0).val, by omega⟩ rfl)
    (k_blk2_2 V c t)

/-- An index of the output array is in point t's block iff each coordinate is in the block's range on its axis. -/
theorem k_mem2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v62).slice (win2_3.rect t)).set ↔ _
  rw [View.set_slice_whole, Rect.mem_set_unit]
  exact Iff.rfl

/-- Row r of the output array is in the block of point r / 5000, which is written back. -/
theorem k_cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 5000 < cfg2.N := lt_of_lt_of_eq (by omega : (i 0).val / 5000 < 20) N_2.symm
  obtain ⟨-, -, -, -, -, -, e6, e7⟩ := k_idx2 ⟨(i 0).val / 5000, hN⟩
  have e6' : win2_3.index ⟨(i 0).val / 5000, hN⟩ (0 : Fin 2) = (i 0).val / 5000 := e6
  refine ⟨⟨(i 0).val / 5000, hN⟩, flush2_3 _, ?_⟩
  rw [k_mem2]
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    omega
  | ⟨1, _⟩ =>
    show win2_3.index ⟨(i 0).val / 5000, hN⟩ (1 : Fin 2) * 128 ≤ (i 1).val
      ∧ (i 1).val < win2_3.index ⟨(i 0).val / 5000, hN⟩ (1 : Fin 2) * 128 + 128
    omega

/-- The second propagation layer's output array after the region: the layer of the arrays found at entry. -/
theorem region2_val (c : Dev nD) :
    (dat2 (F := Ideal) V c).arrAt 3 cfg2.N
      = comb (M := 100000) (K := 128) (Ideal.ofBits .f32 0x3F46E010#32) (Ideal.ofBits .f32 0x3E647FBE#32)
          (V c main_v61) (V c main_v34) (V c main_arg6) :=
  (dat2 (F := Ideal) V c).arrAt_eq_of_cover 3 _ (fun t _ => k_flushed2 V c t) k_cover2

/-! ## The third propagation layer -/

/-- The body's arithmetic at an index of a block: the layer on the block of rows. -/
theorem k_pay3 (xb hb : Vec Ideal S5000x128 .f32) (w : Vec Ideal S128x128 .f32) (j : S5000x128.Idx) :
    k3_pay1 (F := Ideal) xb hb w j
      = comb (M := 5000) (K := 128) (Ideal.ofBits .f32 0x3F588995#32) (Ideal.ofBits .f32 0x3E1DD9AD#32) xb hb w j := by
  unfold k3_pay1
  simp only [maximumf_apply, addf_apply, mulf_apply, broadcast_apply, shapeCast_self]
  rw [k_mm]
  rfl

/-- The printed index maps over the grid: a row-blocked window sits at block (t, 0) at point t, the weight at (0, 0). -/
theorem k_idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of the aggregated features' block at point t is row 5000·t + p of the array. -/
theorem k_blk3_0 (c : Dev nD) (t : Fin cfg3.N) (p : Fin 5000) (q : Fin 128) (r : Fin 100000) (hr : r.val = t.val * 5000 + p.val) :
    (iblk3 (F := Ideal) V c 0 t : Vec Ideal S5000x128 .f32) (ix2 p q) = (V c main_v75 : S100000x128.Idx → EReal) (ix2 r q) := by
  obtain ⟨e0, e1, -⟩ := k_idx3 t
  unfold iblk3
  rw [View.read_apply, cast_eq]
  show V c main_v75 _ = V c main_v75 _
  refine congrArg (V c main_v75) ?_
  funext a; apply Fin.ext
  match a with
  | ⟨0, _⟩ => show win3_0.index t (0 : Fin 2) * 5000 + 1 * p.val = r.val; omega
  | ⟨1, _⟩ => show win3_0.index t (1 : Fin 2) * 128 + 1 * q.val = q.val; omega

/-- Row p of the first layer's features' block at point t is row 5000·t + p of the array. -/
theorem k_blk3_1 (c : Dev nD) (t : Fin cfg3.N) (p : Fin 5000) (q : Fin 128) (r : Fin 100000) (hr : r.val = t.val * 5000 + p.val) :
    (iblk3 (F := Ideal) V c 1 t : Vec Ideal S5000x128 .f32) (ix2 p q) = (V c main_v34 : S100000x128.Idx → EReal) (ix2 r q) := by
  obtain ⟨-, -, e2, e3, -⟩ := k_idx3 t
  unfold iblk3
  rw [View.read_apply, cast_eq]
  show V c main_v34 _ = V c main_v34 _
  refine congrArg (V c main_v34) ?_
  funext a; apply Fin.ext
  match a with
  | ⟨0, _⟩ => show win3_1.index t (0 : Fin 2) * 5000 + 1 * p.val = r.val; omega
  | ⟨1, _⟩ => show win3_1.index t (1 : Fin 2) * 128 + 1 * q.val = q.val; omega

/-- The weight's block at every point is the whole weight matrix. -/
theorem k_blk3_2 (c : Dev nD) (t : Fin cfg3.N) :
    (iblk3 (F := Ideal) V c 2 t : Vec Ideal S128x128 .f32) = (V c main_arg7 : S128x128.Idx → EReal) := by
  obtain ⟨-, -, -, -, e4, e5, -⟩ := k_idx3 t
  funext j
  unfold iblk3
  rw [View.read_apply, cast_eq]
  show V c main_arg7 _ = V c main_arg7 _
  refine congrArg (V c main_arg7) ?_
  funext a; apply Fin.ext
  match a with
  | ⟨0, _⟩ => show win3_2.index t (0 : Fin 2) * 128 + 1 * (j 0).val = (j 0).val; omega
  | ⟨1, _⟩ => show win3_2.index t (1 : Fin 2) * 128 + 1 * (j 1).val = (j 1).val; omega

/-- One entry of the body's result on blocks of rows: the layer of the whole arrays at the row the block row sits at. -/
theorem k_point3 (xb hb : Vec Ideal S5000x128 .f32) (w : Vec Ideal S128x128 .f32) (A H : Mat 100000 128) (W : Mat 128 128)
    (p : Fin 5000) (r : Fin 100000) (q : Fin 128)
    (hx : ∀ k : Fin 128, xb (ix2 p k) = A (ix2 r k)) (hh : ∀ k : Fin 128, hb (ix2 p k) = H (ix2 r k)) (hw : w = W) :
    k3_pay1 (F := Ideal) xb hb w (ix2 p q)
      = comb (M := 100000) (K := 128) (Ideal.ofBits .f32 0x3F588995#32) (Ideal.ofBits .f32 0x3E1DD9AD#32) A H W (ix2 r q) := by
  subst hw
  exact (k_pay3 xb hb w (ix2 p q)).trans
    (comb_rows (Ideal.ofBits .f32 0x3F588995#32) (Ideal.ofBits .f32 0x3E1DD9AD#32) xb hb A H w p r q hx hh)

/-- What point t writes back is block t of the layer of the arrays the region found. -/
theorem k_flushed3 (c : Dev nD) (t : Fin cfg3.N) :
    (dat3 (F := Ideal) V c).flushed 3 t = ((cfg3.win 3).blk t).view.read (Elt Ideal)
      (comb (M := 100000) (K := 128) (Ideal.ofBits .f32 0x3F588995#32) (Ideal.ofBits .f32 0x3E1DD9AD#32)
        (V c main_v75) (V c main_v34) (V c main_arg7)) := by
  show (cfg3.win 3).cut (grid3.coords t) ((dat3 V c).after 3 t) = _
  rw [after3_3]
  unfold out3_3
  rw [View.canon_unit_zero k_hz]
  simp only [View.ld_unit_zero (S := S5000x128) k_hz, View.ld_unit_zero (S := S128x128) k_hz]
  obtain ⟨-, -, -, -, -, -, e6, e7⟩ := k_idx3 t
  have ht : t.val < 20 := lt_of_lt_of_eq t.isLt N_3
  funext y
  have hy0 : (y 0).val < 5000 := (y 0).isLt
  have hy1 : (y 1).val < 128 := (y 1).isLt
  rw [View.read_apply, cast_eq]
  have hp : (cfg3.win 3).xinj (grid3.coords t) y = ix2 (⟨(y 0).val, hy0⟩ : Fin 5000) (⟨(y 1).val, hy1⟩ : Fin 128) :=
    funext (Fin.forall_fin_two.mpr ⟨rfl, rfl⟩)
  have hr : ((cfg3.win 3).blk t).view.emb y
      = ix2 (⟨t.val * 5000 + (y 0).val, by omega⟩ : Fin 100000) (⟨(y 1).val, hy1⟩ : Fin 128) := by
    funext a; apply Fin.ext
    match a with
    | ⟨0, _⟩ => show win3_3.index t (0 : Fin 2) * 5000 + 1 * (y 0).val = t.val * 5000 + (y 0).val; omega
    | ⟨1, _⟩ => show win3_3.index t (1 : Fin 2) * 128 + 1 * (y 1).val = (y 1).val; omega
  refine (congrArg (k3_pay1 (F := Ideal) (iblk3 V c 0 t) (iblk3 V c 1 t) (iblk3 V c 2 t)) hp).trans ?_
  refine Eq.trans ?_ (congrArg (comb (M := 100000) (K := 128) (Ideal.ofBits .f32 0x3F588995#32) (Ideal.ofBits .f32 0x3E1DD9AD#32)
    (V c main_v75) (V c main_v34) (V c main_arg7)) hr.symm)
  exact k_point3 (iblk3 V c 0 t) (iblk3 V c 1 t) (iblk3 V c 2 t) (V c main_v75) (V c main_v34) (V c main_arg7)
    (⟨(y 0).val, hy0⟩ : Fin 5000) (⟨t.val * 5000 + (y 0).val, by omega⟩ : Fin 100000) (⟨(y 1).val, hy1⟩ : Fin 128)
    (fun k => k_blk3_0 V c t ⟨(y 0).val, hy0⟩ k ⟨t.val * 5000 + (y 0).val, by omega⟩ rfl)
    (fun k => k_blk3_1 V c t ⟨(y 0).val, hy0⟩ k ⟨t.val * 5000 + (y 0).val, by omega⟩ rfl)
    (k_blk3_2 V c t)

/-- An index of the output array is in point t's block iff each coordinate is in the block's range on its axis. -/
theorem k_mem3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v76).slice (win3_3.rect t)).set ↔ _
  rw [View.set_slice_whole, Rect.mem_set_unit]
  exact Iff.rfl

/-- Row r of the output array is in the block of point r / 5000, which is written back. -/
theorem k_cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : (i 0).val / 5000 < cfg3.N := lt_of_lt_of_eq (by omega : (i 0).val / 5000 < 20) N_3.symm
  obtain ⟨-, -, -, -, -, -, e6, e7⟩ := k_idx3 ⟨(i 0).val / 5000, hN⟩
  have e6' : win3_3.index ⟨(i 0).val / 5000, hN⟩ (0 : Fin 2) = (i 0).val / 5000 := e6
  refine ⟨⟨(i 0).val / 5000, hN⟩, flush3_3 _, ?_⟩
  rw [k_mem3]
  intro a
  match a with
  | ⟨0, _⟩ =>
    show win3_3.index ⟨(i 0).val / 5000, hN⟩ (0 : Fin 2) * 5000 ≤ (i 0).val
      ∧ (i 0).val < win3_3.index ⟨(i 0).val / 5000, hN⟩ (0 : Fin 2) * 5000 + 5000
    omega
  | ⟨1, _⟩ =>
    show win3_3.index ⟨(i 0).val / 5000, hN⟩ (1 : Fin 2) * 128 ≤ (i 1).val
      ∧ (i 1).val < win3_3.index ⟨(i 0).val / 5000, hN⟩ (1 : Fin 2) * 128 + 128
    omega

/-- The third propagation layer's output array after the region: the layer of the arrays found at entry. -/
theorem region3_val (c : Dev nD) :
    (dat3 (F := Ideal) V c).arrAt 3 cfg3.N
      = comb (M := 100000) (K := 128) (Ideal.ofBits .f32 0x3F588995#32) (Ideal.ofBits .f32 0x3E1DD9AD#32)
          (V c main_v75) (V c main_v34) (V c main_arg7) :=
  (dat3 (F := Ideal) V c).arrAt_eq_of_cover 3 _ (fun t _ => k_flushed3 V c t) k_cover3

end Cert.KernelIdeal.RegionComb

end
-- ==== Proof.HostStretch.lean ====
/-
  The host operations of the kernel program between its regions, read back against the reference's stages.

  The kernel program and the reference run the same chain: a prefix that builds the edge lists with self loops,
  the symmetric normalisation of the edge weights and the transposed first weight matrix; then three times
  "gather the features along the edges, scale by the edge weight, scatter-add into the nodes"; then a transposed
  output weight matrix and the output bias as a row. Each stretch of host operations of the kernel program is,
  operation for operation, a stretch of the reference, so the value a stretch leaves in a buffer is the reference's
  stage whenever the buffers the stretch reads hold the reference's earlier stages. Everything is stated for an
  arbitrary float model: no arithmetic law is used, only that the same operations are applied to the same operands.
-/
import proofs.«166128_j40999757808031_1_alg».proof.Proof.Gen.KernelIdeal.Launch
import proofs.«166128_j40999757808031_1_alg».proof.Proof.Gen.ReferenceIdeal.Read
import Idealize.ShloMosaic.Lib.StableHlo.Run

noncomputable section

namespace Cert.KernelIdeal.Host

open Cert.KernelIdeal Cert.KernelIdeal.Gen Idealize.ShloMosaic Idealize.ShloMosaic.TcCoe Idealize.ShloMosaic.StableHlo

variable {F : FTy → Type} [FloatOps F] (W : Valuation τ sig (Elt F))

/-! ## The prefix: edge lists with self loops, normalised edge weights, the transposed first weights, the bias row -/

/-- The valuation after the three stretches of the prefix. -/
abbrev pre : Valuation τ sig (Elt F) := StableHlo.after hostOps0_2 (StableHlo.after hostOps0_1 (StableHlo.after hostOps0 W))

theorem pre_v3 : pre W (Proc.devRef .tc main_v3) = Cert.ReferenceIdeal.Read.val_main_v3 (F := F) (W (Proc.devRef .tc main_arg1)) := by
  unfold pre
  after_results_simp
  rfl
theorem pre_v6 : pre W (Proc.devRef .tc main_v6) = Cert.ReferenceIdeal.Read.val_main_v6 (F := F) (W (Proc.devRef .tc main_arg1)) := by
  unfold pre
  after_results_simp
  rfl
theorem pre_v31 : pre W (Proc.devRef .tc main_v31) = Cert.ReferenceIdeal.Read.val_main_v31 (F := F) (W (Proc.devRef .tc main_arg1)) (W (Proc.devRef .tc main_arg2)) := by
  unfold pre
  after_results_simp
  rfl
theorem pre_v32 : pre W (Proc.devRef .tc main_v32) = Cert.ReferenceIdeal.Read.val_main_v32 (F := F) (W (Proc.devRef .tc main_arg3)) := by
  unfold pre
  after_results_simp
  rfl
theorem pre_v33 : pre W (Proc.devRef .tc main_v33) = shapeCast S1x128 (W (Proc.devRef .tc main_arg4)) shapeCasts_S128_S1x128 := by
  unfold pre
  after_results_simp
  rfl
theorem pre_keep_arg0 : pre W (Proc.devRef .tc main_arg0) = W (Proc.devRef .tc main_arg0) := by
  unfold pre
  after_results_simp
theorem pre_keep_arg5 : pre W (Proc.devRef .tc main_arg5) = W (Proc.devRef .tc main_arg5) := by
  unfold pre
  after_results_simp
theorem pre_keep_arg6 : pre W (Proc.devRef .tc main_arg6) = W (Proc.devRef .tc main_arg6) := by
  unfold pre
  after_results_simp
theorem pre_keep_arg7 : pre W (Proc.devRef .tc main_arg7) = W (Proc.devRef .tc main_arg7) := by
  unfold pre
  after_results_simp
theorem pre_keep_arg8 : pre W (Proc.devRef .tc main_arg8) = W (Proc.devRef .tc main_arg8) := by
  unfold pre
  after_results_simp
theorem pre_keep_arg9 : pre W (Proc.devRef .tc main_arg9) = W (Proc.devRef .tc main_arg9) := by
  unfold pre
  after_results_simp

/-! ## The first aggregation -/

theorem agg1 (x0 : (⟨S100000x128, .f32⟩ : BufTy).Contents (Elt F)) (x1 : (⟨S2x1600000, .i32⟩ : BufTy).Contents (Elt F)) (x2 : (⟨S1600000, .f32⟩ : BufTy).Contents (Elt F)) (x3 : (⟨S128x128, .f32⟩ : BufTy).Contents (Elt F)) (x4 : (⟨S128, .f32⟩ : BufTy).Contents (Elt F))
    (h31 : W (Proc.devRef .tc main_v31) = Cert.ReferenceIdeal.Read.val_main_v31 (F := F) x1 x2)
    (h3 : W (Proc.devRef .tc main_v3) = Cert.ReferenceIdeal.Read.val_main_v3 (F := F) x1)
    (h6 : W (Proc.devRef .tc main_v6) = Cert.ReferenceIdeal.Read.val_main_v6 (F := F) x1)
    (h34 : W (Proc.devRef .tc main_v34) = Cert.ReferenceIdeal.Read.val_main_v37 (F := F) x0 x3 x4) :
    StableHlo.after hostOps1 W (Proc.devRef .tc main_v47) = Cert.ReferenceIdeal.Read.val_main_v50 (F := F) x0 x1 x2 x3 x4 := by
  after_results_simp
  rw [h31, h3, h6, h34]
  rfl
theorem keep1_v3 : StableHlo.after hostOps1 W (Proc.devRef .tc main_v3) = W (Proc.devRef .tc main_v3) := by
  after_results_simp
theorem keep1_v6 : StableHlo.after hostOps1 W (Proc.devRef .tc main_v6) = W (Proc.devRef .tc main_v6) := by
  after_results_simp
theorem keep1_v31 : StableHlo.after hostOps1 W (Proc.devRef .tc main_v31) = W (Proc.devRef .tc main_v31) := by
  after_results_simp
theorem keep1_v34 : StableHlo.after hostOps1 W (Proc.devRef .tc main_v34) = W (Proc.devRef .tc main_v34) := by
  after_results_simp
theorem keep1_arg5 : StableHlo.after hostOps1 W (Proc.devRef .tc main_arg5) = W (Proc.devRef .tc main_arg5) := by
  after_results_simp
theorem keep1_arg6 : StableHlo.after hostOps1 W (Proc.devRef .tc main_arg6) = W (Proc.devRef .tc main_arg6) := by
  after_results_simp
theorem keep1_arg7 : StableHlo.after hostOps1 W (Proc.devRef .tc main_arg7) = W (Proc.devRef .tc main_arg7) := by
  after_results_simp
theorem keep1_arg8 : StableHlo.after hostOps1 W (Proc.devRef .tc main_arg8) = W (Proc.devRef .tc main_arg8) := by
  after_results_simp
theorem keep1_arg9 : StableHlo.after hostOps1 W (Proc.devRef .tc main_arg9) = W (Proc.devRef .tc main_arg9) := by
  after_results_simp

/-! ## The second aggregation -/

theorem agg2 (x0 : (⟨S100000x128, .f32⟩ : BufTy).Contents (Elt F)) (x1 : (⟨S2x1600000, .i32⟩ : BufTy).Contents (Elt F)) (x2 : (⟨S1600000, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F))
    (h31 : W (Proc.devRef .tc main_v31) = Cert.ReferenceIdeal.Read.val_main_v31 (F := F) x1 x2)
    (h3 : W (Proc.devRef .tc main_v3) = Cert.ReferenceIdeal.Read.val_main_v3 (F := F) x1)
    (h6 : W (Proc.devRef .tc main_v6) = Cert.ReferenceIdeal.Read.val_main_v6 (F := F) x1)
    (h48 : W (Proc.devRef .tc main_v48) = Cert.ReferenceIdeal.Read.val_main_v62 (F := F) x0 x1 x2 x3 x4 x5) :
    StableHlo.after hostOps2 W (Proc.devRef .tc main_v61) = Cert.ReferenceIdeal.Read.val_main_v75 (F := F) x0 x1 x2 x3 x4 x5 := by
  after_results_simp
  rw [h31, h3, h6, h48]
  rfl
theorem keep2_v3 : StableHlo.after hostOps2 W (Proc.devRef .tc main_v3) = W (Proc.devRef .tc main_v3) := by
  after_results_simp
theorem keep2_v6 : StableHlo.after hostOps2 W (Proc.devRef .tc main_v6) = W (Proc.devRef .tc main_v6) := by
  after_results_simp
theorem keep2_v31 : StableHlo.after hostOps2 W (Proc.devRef .tc main_v31) = W (Proc.devRef .tc main_v31) := by
  after_results_simp
theorem keep2_v34 : StableHlo.after hostOps2 W (Proc.devRef .tc main_v34) = W (Proc.devRef .tc main_v34) := by
  after_results_simp
theorem keep2_arg6 : StableHlo.after hostOps2 W (Proc.devRef .tc main_arg6) = W (Proc.devRef .tc main_arg6) := by
  after_results_simp
theorem keep2_arg7 : StableHlo.after hostOps2 W (Proc.devRef .tc main_arg7) = W (Proc.devRef .tc main_arg7) := by
  after_results_simp
theorem keep2_arg8 : StableHlo.after hostOps2 W (Proc.devRef .tc main_arg8) = W (Proc.devRef .tc main_arg8) := by
  after_results_simp
theorem keep2_arg9 : StableHlo.after hostOps2 W (Proc.devRef .tc main_arg9) = W (Proc.devRef .tc main_arg9) := by
  after_results_simp

/-! ## The third aggregation -/

theorem agg3 (x0 : (⟨S100000x128, .f32⟩ : BufTy).Contents (Elt F)) (x1 : (⟨S2x1600000, .i32⟩ : BufTy).Contents (Elt F)) (x2 : (⟨S1600000, .f32⟩ : BufTy).Contents (Elt F)) (x3 : (⟨S128x128, .f32⟩ : BufTy).Contents (Elt F)) (x4 : (⟨S128, .f32⟩ : BufTy).Contents (Elt F)) (x5 x6 : (⟨S128x128, .f32⟩ : BufTy).Contents (Elt F))
    (h31 : W (Proc.devRef .tc main_v31) = Cert.ReferenceIdeal.Read.val_main_v31 (F := F) x1 x2)
    (h3 : W (Proc.devRef .tc main_v3) = Cert.ReferenceIdeal.Read.val_main_v3 (F := F) x1)
    (h6 : W (Proc.devRef .tc main_v6) = Cert.ReferenceIdeal.Read.val_main_v6 (F := F) x1)
    (h62 : W (Proc.devRef .tc main_v62) = Cert.ReferenceIdeal.Read.val_main_v87 (F := F) x0 x1 x2 x3 x4 x5 x6) :
    StableHlo.after hostOps3 W (Proc.devRef .tc main_v75) = Cert.ReferenceIdeal.Read.val_main_v100 (F := F) x0 x1 x2 x3 x4 x5 x6 := by
  after_results_simp
  rw [h31, h3, h6, h62]
  rfl
theorem keep3_v34 : StableHlo.after hostOps3 W (Proc.devRef .tc main_v34) = W (Proc.devRef .tc main_v34) := by
  after_results_simp
theorem keep3_arg7 : StableHlo.after hostOps3 W (Proc.devRef .tc main_arg7) = W (Proc.devRef .tc main_arg7) := by
  after_results_simp
theorem keep3_arg8 : StableHlo.after hostOps3 W (Proc.devRef .tc main_arg8) = W (Proc.devRef .tc main_arg8) := by
  after_results_simp
theorem keep3_arg9 : StableHlo.after hostOps3 W (Proc.devRef .tc main_arg9) = W (Proc.devRef .tc main_arg9) := by
  after_results_simp

/-! ## The last stretch: the transposed output weights and the output bias as a row -/

theorem tail_v77 : StableHlo.after hostOps4 W (Proc.devRef .tc main_v77) = Cert.ReferenceIdeal.Read.val_main_v113 (F := F) (W (Proc.devRef .tc main_arg8)) := by
  after_results_simp
  rfl
theorem tail_v78 : StableHlo.after hostOps4 W (Proc.devRef .tc main_v78) = shapeCast S1x64 (W (Proc.devRef .tc main_arg9)) shapeCasts_S64_S1x64 := by
  after_results_simp
  rfl
theorem keep4_v76 : StableHlo.after hostOps4 W (Proc.devRef .tc main_v76) = W (Proc.devRef .tc main_v76) := by
  after_results_simp

end Cert.KernelIdeal.Host

end
-- ==== Proof.Fold.lean ====
/-
  The contents of the kernel program's buffers at its segment boundaries, as stages of the reference.

  The idealized kernel is twelve segments: host stretches and five pipelined regions. Its host stretches are,
  operation for operation, the reference's own (the graph normalisation, and per layer a gather along the
  edges, a scaling and a scatter-add); each region computes a dense layer that the reference computes by a
  matrix product and elementwise operations. So, walking the boundaries `W3 … W12` in order, every buffer a
  later segment reads holds the reference's stage of the same name's meaning, as a function of the argument
  arrays:

    boundary  buffer          holds (reference stage)
    W3        v3, v6, v31     the edge lists with self loops, the normalised edge weights
              v32, v33        the transposed input weight, the input bias as a row
    W4        v34             h₀ = max(x·W_inᵗ + b_in, 0)
    W5 / W6   v47 / v48       the aggregate of h₀ over the edges / the first layer's output
    W7 / W8   v61 / v62       the second layer's aggregate / output
    W9 / W10  v75 / v76       the third layer's aggregate / output
    W11       v77, v78        the transposed output weight, the output bias as a row
    W12       v79             the result, the reference's last stage.

  A region leaves every buffer that is not one of its arrays as it found it, and its input arrays too; a host
  stretch leaves every buffer it does not write. The bias enters a region as a `1×N` row obtained by a
  reshape where the reference broadcasts the vector to a row: the same row.
-/
import proofs.«166128_j40999757808031_1_alg».proof.Proof.Gen.KernelIdeal.Frame
import proofs.«166128_j40999757808031_1_alg».proof.Proof.Gen.ReferenceIdeal.Read
import proofs.«166128_j40999757808031_1_alg».proof.Proof.Spec
import proofs.«166128_j40999757808031_1_alg».proof.Proof.RefDense
import proofs.«166128_j40999757808031_1_alg».proof.Proof.RegionEnds
import proofs.«166128_j40999757808031_1_alg».proof.Proof.RegionComb
import proofs.«166128_j40999757808031_1_alg».proof.Proof.HostStretch
import Idealize.ShloMosaic.Lib.Pipeline.Value

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.Host Cert.Gcn Cert.ReferenceIdeal Cert.ReferenceIdeal.Read

/-! ## The two bias rows: a reshape of a vector to one row is its broadcast to one row -/
theorem bias128 (x4 : (⟨S128, .f32⟩ : BufTy).Contents (Elt Ideal)) :
    shapeCast S1x128 x4 shapeCasts_S128_S1x128 = val_main_v34 (F := Ideal) x4 := by
  funext i
  rw [val_main_v34_apply]
  exact shapeCast_apply x4 shapeCasts_S128_S1x128 i (idx_main_v34 i) (by
    rewrite [Shape.rowMajor_val_one, Shape.rowMajor_val_two]
    have h0 : (i 0).val < 1 := (i 0).isLt
    show (i 1).val = (i 0).val * 128 + (i 1).val
    omega)

theorem bias64 (x9 : (⟨S64, .f32⟩ : BufTy).Contents (Elt Ideal)) :
    shapeCast S1x64 x9 shapeCasts_S64_S1x64 = val_main_v115 (F := Ideal) x9 := by
  funext i
  rw [val_main_v115_apply]
  exact shapeCast_apply x9 shapeCasts_S64_S1x64 i (idx_main_v115 i) (by
    rewrite [Shape.rowMajor_val_one, Shape.rowMajor_val_two]
    have h0 : (i 0).val < 1 := (i 0).isLt
    show (i 1).val = (i 0).val * 64 + (i 1).val
    omega)

variable (m : (ℓ : Loc nD τ sig) → Buf (Elt Ideal) ℓ) (ρ : Dev nD → PrngReg) (c : Dev nD)

/-! ## Entry of the first region: the graph normalisation and the re-laid weight and bias -/
theorem w3_v3 : W3 m ρ c (Proc.devRef .tc main_v3) = val_main_v3 (F := Ideal) (m ((c : Thread nD τ).loc main_arg1)) := pre_v3 (W0 m ρ c)
theorem w3_v6 : W3 m ρ c (Proc.devRef .tc main_v6) = val_main_v6 (F := Ideal) (m ((c : Thread nD τ).loc main_arg1)) := pre_v6 (W0 m ρ c)
theorem w3_v31 : W3 m ρ c (Proc.devRef .tc main_v31) = val_main_v31 (F := Ideal) (m ((c : Thread nD τ).loc main_arg1)) (m ((c : Thread nD τ).loc main_arg2)) := pre_v31 (W0 m ρ c)
theorem w3_v32 : W3 m ρ c (Proc.devRef .tc main_v32) = val_main_v32 (F := Ideal) (m ((c : Thread nD τ).loc main_arg3)) := pre_v32 (W0 m ρ c)
theorem w3_v33 : W3 m ρ c (Proc.devRef .tc main_v33) = val_main_v34 (F := Ideal) (m ((c : Thread nD τ).loc main_arg4)) := (pre_v33 (W0 m ρ c)).trans (bias128 _)
theorem w3_arg0 : W3 m ρ c (Proc.devRef .tc main_arg0) = m ((c : Thread nD τ).loc main_arg0) := pre_keep_arg0 (W0 m ρ c)
theorem w3_arg5 : W3 m ρ c (Proc.devRef .tc main_arg5) = m ((c : Thread nD τ).loc main_arg5) := pre_keep_arg5 (W0 m ρ c)
theorem w3_arg6 : W3 m ρ c (Proc.devRef .tc main_arg6) = m ((c : Thread nD τ).loc main_arg6) := pre_keep_arg6 (W0 m ρ c)
theorem w3_arg7 : W3 m ρ c (Proc.devRef .tc main_arg7) = m ((c : Thread nD τ).loc main_arg7) := pre_keep_arg7 (W0 m ρ c)
theorem w3_arg8 : W3 m ρ c (Proc.devRef .tc main_arg8) = m ((c : Thread nD τ).loc main_arg8) := pre_keep_arg8 (W0 m ρ c)
theorem w3_arg9 : W3 m ρ c (Proc.devRef .tc main_arg9) = m ((c : Thread nD τ).loc main_arg9) := pre_keep_arg9 (W0 m ρ c)

/-! ## The input projection (region 0) -/
theorem w4_v34 : W4 m ρ c (Proc.devRef .tc main_v34) = val_main_v37 (F := Ideal) (m ((c : Thread nD τ).loc main_arg0)) (m ((c : Thread nD τ).loc main_arg3)) (m ((c : Thread nD τ).loc main_arg4)) := by
  refine (W4_arr m ρ c 3).trans ((RegionEnds.region0_val (V3 m ρ) c).trans ?_)
  have e0 : V3 m ρ c main_arg0 = m ((c : Thread nD τ).loc main_arg0) := w3_arg0 m ρ c
  have e1 : V3 m ρ c main_v32 = val_main_v32 (F := Ideal) (m ((c : Thread nD τ).loc main_arg3)) := w3_v32 m ρ c
  have e2 : V3 m ρ c main_v33 = val_main_v34 (F := Ideal) (m ((c : Thread nD τ).loc main_arg4)) := w3_v33 m ρ c
  rw [e0, e1, e2]
  exact (Dense.ref_proj (m ((c : Thread nD τ).loc main_arg0)) (m ((c : Thread nD τ).loc main_arg3)) (m ((c : Thread nD τ).loc main_arg4))).symm
theorem w4_v3 : W4 m ρ c (Proc.devRef .tc main_v3) = val_main_v3 (F := Ideal) (m ((c : Thread nD τ).loc main_arg1)) := (W4_of_ne m ρ c main_v3 (by decide)).trans (w3_v3 m ρ c)
theorem w4_v6 : W4 m ρ c (Proc.devRef .tc main_v6) = val_main_v6 (F := Ideal) (m ((c : Thread nD τ).loc main_arg1)) := (W4_of_ne m ρ c main_v6 (by decide)).trans (w3_v6 m ρ c)
theorem w4_v31 : W4 m ρ c (Proc.devRef .tc main_v31) = val_main_v31 (F := Ideal) (m ((c : Thread nD τ).loc main_arg1)) (m ((c : Thread nD τ).loc main_arg2)) := (W4_of_ne m ρ c main_v31 (by decide)).trans (w3_v31 m ρ c)
theorem w4_arg5 : W4 m ρ c (Proc.devRef .tc main_arg5) = m ((c : Thread nD τ).loc main_arg5) := (W4_of_ne m ρ c main_arg5 (by decide)).trans (w3_arg5 m ρ c)
theorem w4_arg6 : W4 m ρ c (Proc.devRef .tc main_arg6) = m ((c : Thread nD τ).loc main_arg6) := (W4_of_ne m ρ c main_arg6 (by decide)).trans (w3_arg6 m ρ c)
theorem w4_arg7 : W4 m ρ c (Proc.devRef .tc main_arg7) = m ((c : Thread nD τ).loc main_arg7) := (W4_of_ne m ρ c main_arg7 (by decide)).trans (w3_arg7 m ρ c)
theorem w4_arg8 : W4 m ρ c (Proc.devRef .tc main_arg8) = m ((c : Thread nD τ).loc main_arg8) := (W4_of_ne m ρ c main_arg8 (by decide)).trans (w3_arg8 m ρ c)
theorem w4_arg9 : W4 m ρ c (Proc.devRef .tc main_arg9) = m ((c : Thread nD τ).loc main_arg9) := (W4_of_ne m ρ c main_arg9 (by decide)).trans (w3_arg9 m ρ c)

/-! ## First propagation layer: aggregation over the edges, then region 1 -/
theorem w5_v47 : W5 m ρ c (Proc.devRef .tc main_v47) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  agg1 (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (w4_v31 m ρ c) (w4_v3 m ρ c) (w4_v6 m ρ c) (w4_v34 m ρ c)
theorem w5_v3 : W5 m ρ c (Proc.devRef .tc main_v3) = val_main_v3 (F := Ideal) (m ((c : Thread nD τ).loc main_arg1)) := (keep1_v3 (W4 m ρ c)).trans (w4_v3 m ρ c)
theorem w5_v6 : W5 m ρ c (Proc.devRef .tc main_v6) = val_main_v6 (F := Ideal) (m ((c : Thread nD τ).loc main_arg1)) := (keep1_v6 (W4 m ρ c)).trans (w4_v6 m ρ c)
theorem w5_v31 : W5 m ρ c (Proc.devRef .tc main_v31) = val_main_v31 (F := Ideal) (m ((c : Thread nD τ).loc main_arg1)) (m ((c : Thread nD τ).loc main_arg2)) := (keep1_v31 (W4 m ρ c)).trans (w4_v31 m ρ c)
theorem w5_v34 : W5 m ρ c (Proc.devRef .tc main_v34) = val_main_v37 (F := Ideal) (m ((c : Thread nD τ).loc main_arg0)) (m ((c : Thread nD τ).loc main_arg3)) (m ((c : Thread nD τ).loc main_arg4)) := (keep1_v34 (W4 m ρ c)).trans (w4_v34 m ρ c)
theorem w5_arg5 : W5 m ρ c (Proc.devRef .tc main_arg5) = m ((c : Thread nD τ).loc main_arg5) := (keep1_arg5 (W4 m ρ c)).trans (w4_arg5 m ρ c)
theorem w5_arg6 : W5 m ρ c (Proc.devRef .tc main_arg6) = m ((c : Thread nD τ).loc main_arg6) := (keep1_arg6 (W4 m ρ c)).trans (w4_arg6 m ρ c)
theorem w5_arg7 : W5 m ρ c (Proc.devRef .tc main_arg7) = m ((c : Thread nD τ).loc main_arg7) := (keep1_arg7 (W4 m ρ c)).trans (w4_arg7 m ρ c)
theorem w5_arg8 : W5 m ρ c (Proc.devRef .tc main_arg8) = m ((c : Thread nD τ).loc main_arg8) := (keep1_arg8 (W4 m ρ c)).trans (w4_arg8 m ρ c)
theorem w5_arg9 : W5 m ρ c (Proc.devRef .tc main_arg9) = m ((c : Thread nD τ).loc main_arg9) := (keep1_arg9 (W4 m ρ c)).trans (w4_arg9 m ρ c)
theorem w6_v48 : W6 m ρ c (Proc.devRef .tc main_v48) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((RegionComb.region1_val (V5 m ρ) c).trans ?_)
  have e0 : V5 m ρ c main_v47 = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := w5_v47 m ρ c
  have e1 : V5 m ρ c main_v34 = val_main_v37 (F := Ideal) (m ((c : Thread nD τ).loc main_arg0)) (m ((c : Thread nD τ).loc main_arg3)) (m ((c : Thread nD τ).loc main_arg4)) := w5_v34 m ρ c
  have e2 : V5 m ρ c main_arg5 = m ((c : Thread nD τ).loc main_arg5) := w5_arg5 m ρ c
  rw [e0, e1, e2]
  exact (Dense.ref_comb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm
theorem w6_v3 : W6 m ρ c (Proc.devRef .tc main_v3) = val_main_v3 (F := Ideal) (m ((c : Thread nD τ).loc main_arg1)) := (W6_of_ne m ρ c main_v3 (by decide)).trans (w5_v3 m ρ c)
theorem w6_v6 : W6 m ρ c (Proc.devRef .tc main_v6) = val_main_v6 (F := Ideal) (m ((c : Thread nD τ).loc main_arg1)) := (W6_of_ne m ρ c main_v6 (by decide)).trans (w5_v6 m ρ c)
theorem w6_v31 : W6 m ρ c (Proc.devRef .tc main_v31) = val_main_v31 (F := Ideal) (m ((c : Thread nD τ).loc main_arg1)) (m ((c : Thread nD τ).loc main_arg2)) := (W6_of_ne m ρ c main_v31 (by decide)).trans (w5_v31 m ρ c)
theorem w6_arg6 : W6 m ρ c (Proc.devRef .tc main_arg6) = m ((c : Thread nD τ).loc main_arg6) := (W6_of_ne m ρ c main_arg6 (by decide)).trans (w5_arg6 m ρ c)
theorem w6_arg7 : W6 m ρ c (Proc.devRef .tc main_arg7) = m ((c : Thread nD τ).loc main_arg7) := (W6_of_ne m ρ c main_arg7 (by decide)).trans (w5_arg7 m ρ c)
theorem w6_arg8 : W6 m ρ c (Proc.devRef .tc main_arg8) = m ((c : Thread nD τ).loc main_arg8) := (W6_of_ne m ρ c main_arg8 (by decide)).trans (w5_arg8 m ρ c)
theorem w6_arg9 : W6 m ρ c (Proc.devRef .tc main_arg9) = m ((c : Thread nD τ).loc main_arg9) := (W6_of_ne m ρ c main_arg9 (by decide)).trans (w5_arg9 m ρ c)
theorem w6_v34 : W6 m ρ c (Proc.devRef .tc main_v34) = val_main_v37 (F := Ideal) (m ((c : Thread nD τ).loc main_arg0)) (m ((c : Thread nD τ).loc main_arg3)) (m ((c : Thread nD τ).loc main_arg4)) :=
  ((W6_arr m ρ c 1).trans (((dat1 (V5 m ρ) c).arrAt_in 1 rfl _).trans (A_eq1 (V5 m ρ) c 1))).trans (w5_v34 m ρ c)

/-! ## Second propagation layer -/
theorem w7_v61 : W7 m ρ c (Proc.devRef .tc main_v61) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  agg2 (W6 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (w6_v31 m ρ c) (w6_v3 m ρ c) (w6_v6 m ρ c) (w6_v48 m ρ c)
theorem w7_v3 : W7 m ρ c (Proc.devRef .tc main_v3) = val_main_v3 (F := Ideal) (m ((c : Thread nD τ).loc main_arg1)) := (keep2_v3 (W6 m ρ c)).trans (w6_v3 m ρ c)
theorem w7_v6 : W7 m ρ c (Proc.devRef .tc main_v6) = val_main_v6 (F := Ideal) (m ((c : Thread nD τ).loc main_arg1)) := (keep2_v6 (W6 m ρ c)).trans (w6_v6 m ρ c)
theorem w7_v31 : W7 m ρ c (Proc.devRef .tc main_v31) = val_main_v31 (F := Ideal) (m ((c : Thread nD τ).loc main_arg1)) (m ((c : Thread nD τ).loc main_arg2)) := (keep2_v31 (W6 m ρ c)).trans (w6_v31 m ρ c)
theorem w7_v34 : W7 m ρ c (Proc.devRef .tc main_v34) = val_main_v37 (F := Ideal) (m ((c : Thread nD τ).loc main_arg0)) (m ((c : Thread nD τ).loc main_arg3)) (m ((c : Thread nD τ).loc main_arg4)) := (keep2_v34 (W6 m ρ c)).trans (w6_v34 m ρ c)
theorem w7_arg6 : W7 m ρ c (Proc.devRef .tc main_arg6) = m ((c : Thread nD τ).loc main_arg6) := (keep2_arg6 (W6 m ρ c)).trans (w6_arg6 m ρ c)
theorem w7_arg7 : W7 m ρ c (Proc.devRef .tc main_arg7) = m ((c : Thread nD τ).loc main_arg7) := (keep2_arg7 (W6 m ρ c)).trans (w6_arg7 m ρ c)
theorem w7_arg8 : W7 m ρ c (Proc.devRef .tc main_arg8) = m ((c : Thread nD τ).loc main_arg8) := (keep2_arg8 (W6 m ρ c)).trans (w6_arg8 m ρ c)
theorem w7_arg9 : W7 m ρ c (Proc.devRef .tc main_arg9) = m ((c : Thread nD τ).loc main_arg9) := (keep2_arg9 (W6 m ρ c)).trans (w6_arg9 m ρ c)
theorem w8_v62 : W8 m ρ c (Proc.devRef .tc main_v62) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ((RegionComb.region2_val (V7 m ρ) c).trans ?_)
  have e0 : V7 m ρ c main_v61 = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := w7_v61 m ρ c
  have e1 : V7 m ρ c main_v34 = val_main_v37 (F := Ideal) (m ((c : Thread nD τ).loc main_arg0)) (m ((c : Thread nD τ).loc main_arg3)) (m ((c : Thread nD τ).loc main_arg4)) := w7_v34 m ρ c
  have e2 : V7 m ρ c main_arg6 = m ((c : Thread nD τ).loc main_arg6) := w7_arg6 m ρ c
  rw [e0, e1, e2]
  exact (Dense.ref_comb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm
theorem w8_v3 : W8 m ρ c (Proc.devRef .tc main_v3) = val_main_v3 (F := Ideal) (m ((c : Thread nD τ).loc main_arg1)) := (W8_of_ne m ρ c main_v3 (by decide)).trans (w7_v3 m ρ c)
theorem w8_v6 : W8 m ρ c (Proc.devRef .tc main_v6) = val_main_v6 (F := Ideal) (m ((c : Thread nD τ).loc main_arg1)) := (W8_of_ne m ρ c main_v6 (by decide)).trans (w7_v6 m ρ c)
theorem w8_v31 : W8 m ρ c (Proc.devRef .tc main_v31) = val_main_v31 (F := Ideal) (m ((c : Thread nD τ).loc main_arg1)) (m ((c : Thread nD τ).loc main_arg2)) := (W8_of_ne m ρ c main_v31 (by decide)).trans (w7_v31 m ρ c)
theorem w8_arg7 : W8 m ρ c (Proc.devRef .tc main_arg7) = m ((c : Thread nD τ).loc main_arg7) := (W8_of_ne m ρ c main_arg7 (by decide)).trans (w7_arg7 m ρ c)
theorem w8_arg8 : W8 m ρ c (Proc.devRef .tc main_arg8) = m ((c : Thread nD τ).loc main_arg8) := (W8_of_ne m ρ c main_arg8 (by decide)).trans (w7_arg8 m ρ c)
theorem w8_arg9 : W8 m ρ c (Proc.devRef .tc main_arg9) = m ((c : Thread nD τ).loc main_arg9) := (W8_of_ne m ρ c main_arg9 (by decide)).trans (w7_arg9 m ρ c)
theorem w8_v34 : W8 m ρ c (Proc.devRef .tc main_v34) = val_main_v37 (F := Ideal) (m ((c : Thread nD τ).loc main_arg0)) (m ((c : Thread nD τ).loc main_arg3)) (m ((c : Thread nD τ).loc main_arg4)) :=
  ((W8_arr m ρ c 1).trans (((dat2 (V7 m ρ) c).arrAt_in 1 rfl _).trans (A_eq2 (V7 m ρ) c 1))).trans (w7_v34 m ρ c)

/-! ## Third propagation layer -/
theorem w9_v75 : W9 m ρ c (Proc.devRef .tc main_v75) = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  agg3 (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (w8_v31 m ρ c) (w8_v3 m ρ c) (w8_v6 m ρ c) (w8_v62 m ρ c)
theorem w9_v34 : W9 m ρ c (Proc.devRef .tc main_v34) = val_main_v37 (F := Ideal) (m ((c : Thread nD τ).loc main_arg0)) (m ((c : Thread nD τ).loc main_arg3)) (m ((c : Thread nD τ).loc main_arg4)) := (keep3_v34 (W8 m ρ c)).trans (w8_v34 m ρ c)
theorem w9_arg7 : W9 m ρ c (Proc.devRef .tc main_arg7) = m ((c : Thread nD τ).loc main_arg7) := (keep3_arg7 (W8 m ρ c)).trans (w8_arg7 m ρ c)
theorem w9_arg8 : W9 m ρ c (Proc.devRef .tc main_arg8) = m ((c : Thread nD τ).loc main_arg8) := (keep3_arg8 (W8 m ρ c)).trans (w8_arg8 m ρ c)
theorem w9_arg9 : W9 m ρ c (Proc.devRef .tc main_arg9) = m ((c : Thread nD τ).loc main_arg9) := (keep3_arg9 (W8 m ρ c)).trans (w8_arg9 m ρ c)
theorem w10_v76 : W10 m ρ c (Proc.devRef .tc main_v76) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((RegionComb.region3_val (V9 m ρ) c).trans ?_)
  have e0 : V9 m ρ c main_v75 = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := w9_v75 m ρ c
  have e1 : V9 m ρ c main_v34 = val_main_v37 (F := Ideal) (m ((c : Thread nD τ).loc main_arg0)) (m ((c : Thread nD τ).loc main_arg3)) (m ((c : Thread nD τ).loc main_arg4)) := w9_v34 m ρ c
  have e2 : V9 m ρ c main_arg7 = m ((c : Thread nD τ).loc main_arg7) := w9_arg7 m ρ c
  rw [e0, e1, e2]
  exact (Dense.ref_comb3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm
theorem w10_arg8 : W10 m ρ c (Proc.devRef .tc main_arg8) = m ((c : Thread nD τ).loc main_arg8) := (W10_of_ne m ρ c main_arg8 (by decide)).trans (w9_arg8 m ρ c)
theorem w10_arg9 : W10 m ρ c (Proc.devRef .tc main_arg9) = m ((c : Thread nD τ).loc main_arg9) := (W10_of_ne m ρ c main_arg9 (by decide)).trans (w9_arg9 m ρ c)

/-! ## The output projection (region 4) -/
theorem w11_v77 : W11 m ρ c (Proc.devRef .tc main_v77) = val_main_v113 (F := Ideal) (m ((c : Thread nD τ).loc main_arg8)) := (tail_v77 (W10 m ρ c)).trans (congrArg (val_main_v113 (F := Ideal)) (w10_arg8 m ρ c))
theorem w11_v78 : W11 m ρ c (Proc.devRef .tc main_v78) = val_main_v115 (F := Ideal) (m ((c : Thread nD τ).loc main_arg9)) := by
  refine (tail_v78 (W10 m ρ c)).trans ?_
  rw [w10_arg9 m ρ c]
  exact bias64 _
theorem w11_v76 : W11 m ρ c (Proc.devRef .tc main_v76) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (keep4_v76 (W10 m ρ c)).trans (w10_v76 m ρ c)
theorem w12_v79 : W12 m ρ c (Proc.devRef .tc main_v79) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 3).trans ((RegionEnds.region4_val (V11 m ρ) c).trans ?_)
  have e0 : V11 m ρ c main_v76 = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := w11_v76 m ρ c
  have e1 : V11 m ρ c main_v77 = val_main_v113 (F := Ideal) (m ((c : Thread nD τ).loc main_arg8)) := w11_v77 m ρ c
  have e2 : V11 m ρ c main_v78 = val_main_v115 (F := Ideal) (m ((c : Thread nD τ).loc main_arg9)) := w11_v78 m ρ c
  rw [e0, e1, e2]
  exact (Dense.ref_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

end Cert.KernelIdeal.Fold

end
-- ==== Proof.lean ====
/-
  The certificate: a three-layer graph convolution network with initial residual and identity mapping,
  its dense layers as Pallas kernels, against the plain jnp reference, on the extended reals.

  Both programs compute
      h₀ = max(x·W_inᵗ + b_in, 0),
      hₗ = max((1 − βₗ)·zₗ + βₗ·(zₗ·Wₗ), 0)   with   zₗ = 0.9·Â hₗ₋₁ + 0.1·h₀   (l = 1, 2, 3),
      out = h₃·W_outᵗ + b_out,
  where Â h is the normalised aggregation over the edges (with self loops): a gather of rows along the edges,
  a scaling by the edge weight, and a scatter-add into the target rows. The graph normalisation and the
  aggregations are the same host operations in both programs. The kernel computes the five dense layers in
  pipelined regions over blocks of 5000 rows, with operands rounded to bfloat16 before the matrix unit; on
  the extended reals a change of float format is the identity, a matrix-unit product into a zero accumulator
  is the sum Σₖ l(r,k)·w(k,c), and so is the host's contraction. Every float constant is the same word on
  both sides (the mix weights, and the three pairs 1 − βₗ, βₗ), so none is ever evaluated, and no law that
  needs finite values is used: the precondition is never opened.

  The frames of the two kernel programs are the generated ones; the reference, a host program, has its run
  read back. The idealization rewrote nothing, so `preserves` is trivial. For `algebraic`, the kernel's run
  names its result as the last boundary's contents (RunVal), the fold through the boundaries identifies it
  with the reference's last stage of the argument arrays (Fold; the dense layers index by index in
  RegionEnds, RegionComb and RefDense over the functions of Spec, the host stretches in HostStretch), and
  the reference's run ends at that stage of arguments that agree.
-/
import proofs.«166128_j40999757808031_1_alg».proof.Defs
import proofs.«166128_j40999757808031_1_alg».proof.Proof.Gen.Kernel
import proofs.«166128_j40999757808031_1_alg».proof.Proof.Gen.Kernel.Frame
import proofs.«166128_j40999757808031_1_alg».proof.Proof.Gen.KernelIdeal
import proofs.«166128_j40999757808031_1_alg».proof.Proof.Gen.KernelIdeal.Frame
import proofs.«166128_j40999757808031_1_alg».proof.Proof.Gen.ReferenceIdeal
import proofs.«166128_j40999757808031_1_alg».proof.Proof.Gen.ReferenceIdeal.Read
import proofs.«166128_j40999757808031_1_alg».proof.Proof.Gen.Pre_finite_inputs
import proofs.«166128_j40999757808031_1_alg».proof.Proof.RunVal
import proofs.«166128_j40999757808031_1_alg».proof.Proof.Fold
import Idealize.ShloMosaic.Adequacy
import Idealize.ShloMosaic.Init

noncomputable section

namespace Cert.Proof.Claims

open Idealize.ShloMosaic Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The reference is host operations only: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with the reference's last stage of the argument arrays: the
    kernel by the fold through its twelve segments, the reference by its run read stage by stage; the
    argument arrays agree by hypothesis. -/
theorem algebraic : Cert.algebraic_KernelIdeal_ReferenceIdeal := by
  intro m ρ m' ρ' _ hagree
  refine ⟨fun c => Cert.ReferenceIdeal.Read.val_main_v117 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.w12_v79 m ρ c), (h c).2⟩)
      (Cert.KernelIdeal.RunVal.frame_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v117_eq, h0, h1, h2, h3, h4, h5, h6, h7, h8, h9]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
